-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : IVec S8192 32) (main_arg3 : IVec S8192 32) (main_arg4 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S2x8x128 : Shape := ⟨3, ![2, 8, 128]⟩
abbrev S512x1024 : Shape := ⟨2, ![512, 1024]⟩
abbrev S1x8x128 : Shape := ⟨3, ![1, 8, 128]⟩
abbrev S1x1 : Shape := ⟨2, ![1, 1]⟩
abbrev S512 : Shape := ⟨1, ![512]⟩
abbrev S512x1 : Shape := ⟨2, ![512, 1]⟩
abbrev S1 : Shape := ⟨1, ![1]⟩
abbrev S1x126 : Shape := ⟨2, ![1, 126]⟩
abbrev S1x128 : Shape := ⟨2, ![1, 128]⟩
abbrev S8x128 : Shape := ⟨2, ![8, 128]⟩
abbrev S2x1x2 : Shape := ⟨3, ![2, 1, 2]⟩
abbrev S2x2 : Shape := ⟨2, ![2, 2]⟩
abbrev S2 : Shape := ⟨1, ![2]⟩

abbrev nBuf : Space → Nat
  | .hbm => 39
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x1024, .f32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x1024, .f32⟩
  | .hbm, ⟨23, _⟩ => ⟨S2x8x128, .f32⟩
  | .hbm, ⟨24, _⟩ => ⟨S2x1x2, .f32⟩
  | .hbm, ⟨25, _⟩ => ⟨S2x2, .f32⟩
  | .hbm, ⟨26, _⟩ => ⟨S_, .f32⟩
  | .hbm, ⟨27, _⟩ => ⟨S2, .f32⟩
  | .hbm, ⟨28, _⟩ => ⟨S1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x8x128, .f32⟩
  | .local _ .vmem, ⟨9, _⟩ => ⟨S1x8x128, .f32⟩
  | .local _ .vmem, ⟨10, _⟩ => ⟨S1x1, .f32⟩
  | .local _ .vmem, ⟨11, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v98 : BitVec 1 := Scalar.cmpi .eq arg1 c7_i32
  let v99 : BitVec 32 := Scalar.extui v98
  let c0_i32_34 : BitVec 32 := 0#32
  let v100 : BitVec 1 := Scalar.cmpi .ne v99 c0_i32_34
  v100

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  reduces_S512x1_S1 : S512x1.Reduces [0] S1
  shapeCasts_S1_S1x1 : S1.ShapeCasts S1x1
  concatenates_S1x1_S1x1_S1x126_S1x128_d1 : Shape.Concatenates [S1x1, S1x1, S1x126] S1x128 1
  shapeCasts_S1x128_S1x128 : S1x128.ShapeCasts S1x128
  broadcasts_S1x128_S8x128 : S1x128.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x2_0_0_0 : S2x8x128.Slices ![0, 0, 0] S2x1x2
  shapeCasts_S2x1x2_S2x2 : S2x1x2.ShapeCasts S2x2
  reducesTo_S2x2_S2_d0 : S2x2.ReducesTo [0] S2
  h_S_ : 0 < S_.numel
  slices_S2_S1_0 : S2.Slices ![0] S1
  shapeCasts_S1_S_ : S1.ShapeCasts S_
  slices_S2_S1_1 : S2.Slices ![1] S1
  gather_S8192x1024_S8192x1_S8192x1024_1_0_n_n_0_1_11024_wf : GatherDims.WF S8192x1024 S8192x1 S8192x1024 [1] [0] [] [0] [] 1 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S8192x2 : Shape := ⟨2, ![8192, 2]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1024x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x1, .i32⟩
  | .hbm, ⟨47, _⟩ => ⟨S8192x2, .i32⟩
  | .hbm, ⟨48, _⟩ => ⟨S8192, .f32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S_, .i32⟩
  | .hbm, ⟨57, _⟩ => ⟨S8192, .i32⟩
  | .hbm, ⟨58, _⟩ => ⟨S8192, .i1⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S8192, .i32⟩
  | .hbm, ⟨63, _⟩ => ⟨S8192x1, .i32⟩
  | .hbm, ⟨64, _⟩ => ⟨S8192x1, .i32⟩
  | .hbm, ⟨65, _⟩ => ⟨S8192x2, .i32⟩
  | .hbm, ⟨66, _⟩ => ⟨S8192, .f32⟩
  | .hbm, ⟨67, _⟩ => ⟨S_, .i32⟩
  | .hbm, ⟨68, _⟩ => ⟨S8192, .i32⟩
  | .hbm, ⟨69, _⟩ => ⟨S8192, .i1⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .i32⟩
  | .hbm, ⟨74, _⟩ => ⟨S_, .i32⟩
  | .hbm, ⟨75, _⟩ => ⟨S8192, .i32⟩
  | .hbm, ⟨76, _⟩ => ⟨S8192, .i1⟩
  | .hbm, ⟨77, _⟩ => ⟨S_, .i32⟩
  | .hbm, ⟨78, _⟩ => ⟨S8192, .i32⟩
  | .hbm, ⟨79, _⟩ => ⟨S8192, .i32⟩
  | .hbm, ⟨80, _⟩ => ⟨S8192, .i32⟩
  | .hbm, ⟨81, _⟩ => ⟨S8192x1, .i32⟩
  | .hbm, ⟨82, _⟩ => ⟨S8192x1, .i32⟩
  | .hbm, ⟨83, _⟩ => ⟨S8192x2, .i32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S8192, .f32⟩
  | .hbm, ⟨90, _⟩ => ⟨S8192, .f32⟩
  | .hbm, ⟨91, _⟩ => ⟨S8192, .i1⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S8192, .f32⟩
  | .hbm, ⟨97, _⟩ => ⟨S8192, .f32⟩
  | .hbm, ⟨98, _⟩ => ⟨S8192, .f32⟩
  | .hbm, ⟨99, _⟩ => ⟨S8192, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S8192, .f32⟩
  | .hbm, ⟨105, _⟩ => ⟨S_, .f32⟩
  | .hbm, ⟨106, _⟩ => ⟨S8192, .f32⟩
  | .hbm, ⟨107, _⟩ => ⟨S8192, .f32⟩
  | .hbm, ⟨108, _⟩ => ⟨S8192, .f32⟩
  | .hbm, ⟨109, _⟩ => ⟨S8192, .f32⟩
  | .hbm, ⟨110, _⟩ => ⟨S8192, .i1⟩
  | .hbm, ⟨111, _⟩ => ⟨S8192, .f32⟩
  | .hbm, ⟨112, _⟩ => ⟨S8192, .f32⟩
  | .hbm, ⟨113, _⟩ => ⟨S8192, .f32⟩
  | .hbm, ⟨114, _⟩ => ⟨S8192, .f32⟩
  | .hbm, ⟨115, _⟩ => ⟨S8192, .f32⟩
  | .hbm, ⟨116, _⟩ => ⟨S8192, .f32⟩
  | .hbm, ⟨117, _⟩ => ⟨S8192, .f32⟩
  | .hbm, ⟨118, _⟩ => ⟨S8192, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_v58 : Ref sig .tc := ⟨.hbm, 99, rfl⟩
abbrev main_cst_13 : Ref sig .tc := ⟨.hbm, 100, rfl⟩
abbrev main_v59 : Ref sig .tc := ⟨.hbm, 101, rfl⟩
abbrev main_cst_14 : Ref sig .tc := ⟨.hbm, 102, rfl⟩
abbrev main_v60 : Ref sig .tc := ⟨.hbm, 103, rfl⟩
abbrev main_v61 : Ref sig .tc := ⟨.hbm, 104, rfl⟩
abbrev main_call3_cst : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_v62 : Ref sig .tc := ⟨.hbm, 118, rfl⟩
abbrev main_cst_15 : Ref sig .tc := ⟨.hbm, 119, rfl⟩
abbrev main_v63 : Ref sig .tc := ⟨.hbm, 120, rfl⟩
abbrev main_cst_16 : Ref sig .tc := ⟨.hbm, 121, rfl⟩
abbrev main_v64 : Ref sig .tc := ⟨.hbm, 122, rfl⟩
abbrev main_v65 : Ref sig .tc := ⟨.hbm, 123, rfl⟩
abbrev main_cst_17 : Ref sig .tc := ⟨.hbm, 124, rfl⟩
abbrev main_v66 : Ref sig .tc := ⟨.hbm, 125, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  reducesTo_S8192_S_d0 : S8192.ReducesTo [0] S_
  dot_S8192x1024_S1024x8192_S8192x8192_1_0_0_1_n_n_wf : DotDims.WF S8192x1024 S1024x8192 S8192x8192 [1] [0] [0] [1] [] []
  gather_S8192x8192_S8192x2_S8192_n_01_n_n_01_1_11_wf : GatherDims.WF S8192x8192 S8192x2 S8192 [] [0, 1] [] [0, 1] [] 1 ![1, 1]

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.KernelPieces.lean ====
/-
  What the body leaves behind at a grid point, read back as values.

  The body keeps two running sums in two one-word scratch buffers: at the first tile of a core it clears them,
  then at every tile it adds the tile's column sum of image-to-text losses to the first and of text-to-image
  losses to the second; at the last tile of a core it writes the two sums into lanes 0 and 1 of the core's
  output block. Each of these stores is read back here as the pure term of the tile's four input blocks and of
  the two sums the previous tile left.
-/
import proofs.«131384_j13889924235452_2_alg».proof.Proof.Gen.KernelIdeal.Frame
import Idealize.ShloMosaic.Lib.Pipeline.Value
import Idealize.ShloMosaic.Lib.Tactic

noncomputable section

namespace Cert.KernelIdeal.KVal

open Idealize.ShloMosaic Idealize.ShloMosaic.TcCoe Idealize.SL.Sem
open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile's column sum of image-to-text losses, from the image, text and gathered-text blocks. -/
abbrev tileI2T (x0 x1 x2 : Vec F S512x1024 .f32) : FVec F S1x1 .f32 :=
  k0_pay13 (k0_pay7 x0) (k0_pay8 x1) (k0_pay9 x2)

/-- The tile's rows of text-to-image losses, from the image, text and gathered-image blocks. -/
abbrev tileT2I (x0 x1 x3 : Vec F S512x1024 .f32) : FVec F S512x1 .f32 :=
  k0_pay12 (k0_pay6 x3) (k0_pay7 x0) (k0_pay8 x1) (k0_pay10 x3)

/-- First tile of a core: the first sum is cleared, then the tile's image-to-text sum is added. -/
theorem sumI2T_first (c : Dev nD) (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : cond0_0 i) (hc1 : ¬cond0_1 i)
    (x0 x1 x2 x3 : Vec F S512x1024 .f32) :
    sout0_A_0 c i a2 h2 a3 h3 a4 h4 a5 h5 a6 h6 a7 h7 a8 h8 hc0 hc1 x0 x1 x2 x3 = k0_pay1 k0_pay4 (tileI2T x0 x1 x2) := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  rw [View.canon_cons_unit_zero (S := S1x1) hz2]
  simp only [View.readCov_unit_zero (S := S1x1) _ hz2, View.readAt_eq_ld, h2.read_unread, h3.read_unread, h4.read_unread,
    h5.read_unread, View.ld_unit_zero (S := S512x1024) hz2, View.ld_unit_zero (S := S1x1) hz2]

/-- First tile of a core: the second sum is cleared, then the tile's text-to-image losses are added. -/
theorem sumT2I_first (c : Dev nD) (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : cond0_0 i) (hc1 : ¬cond0_1 i)
    (x0 x1 x2 x3 : Vec F S512x1024 .f32) :
    sout0_A_1 c i a2 h2 a3 h3 a4 h4 a5 h5 a6 h6 a7 h7 a8 h8 hc0 hc1 x0 x1 x2 x3 = k0_pay2 (tileT2I x0 x1 x3) k0_pay5 := by
  unfold sout0_A_1
  rw [View.read_writes_eq_canon _ _ _ (scover0_A_1 c i a2 h2 a3 h3 a4 h4 a5 h5 a6 h6 a7 h7 a8 h8 hc0 hc1 x0 x1 x2 x3)]
  unfold kernelRun0_A
  dsimp only
  sl_unfold_words
  rw [View.canon_cons_unit_zero (S := S1x1) hz2]
  simp only [View.readCov_unit_zero (S := S1x1) _ hz2, View.readAt_eq_ld, h2.read_unread, h3.read_unread, h4.read_unread,
    h5.read_unread, View.ld_unit_zero (S := S512x1024) hz2, View.ld_unit_zero (S := S1x1) hz2]

/-- A middle tile: the tile's image-to-text sum is added to the first sum. -/
theorem sumI2T_middle (c : Dev nD) (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : ¬cond0_1 i)
    (x0 x1 x2 x3 : Vec F S512x1024 .f32) (xs0 xs1 : Vec F S1x1 .f32) :
    sout0_B_0 c i a2 h2 a3 h3 a4 h4 a5 h5 a6 h6 a7 h7 a8 h8 hc0 hc1 x0 x1 x2 x3 xs0 xs1 = k0_pay1 xs0 (tileI2T x0 x1 x2) := by
  unfold sout0_B_0
  rw [View.read_writes_eq_canon _ _ _ (scover0_B_0 c i a2 h2 a3 h3 a4 h4 a5 h5 a6 h6 a7 h7 a8 h8 hc0 hc1 x0 x1 x2 x3 xs0 xs1)]
  unfold kernelRun0_B
  dsimp only
  sl_unfold_words
  rw [View.canon_unit_zero hz2]
  simp only [View.readAt_eq_ld, h2.read_unread, h3.read_unread, h4.read_unread, h5.read_unread, h7.read_unread,
    h8.read_unread, View.ld_unit_zero (S := S512x1024) hz2, View.ld_unit_zero (S := S1x1) hz2]

/-- A middle tile: the tile's text-to-image losses are added to the second sum. -/
theorem sumT2I_middle (c : Dev nD) (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : ¬cond0_1 i)
    (x0 x1 x2 x3 : Vec F S512x1024 .f32) (xs0 xs1 : Vec F S1x1 .f32) :
    sout0_B_1 c i a2 h2 a3 h3 a4 h4 a5 h5 a6 h6 a7 h7 a8 h8 hc0 hc1 x0 x1 x2 x3 xs0 xs1 = k0_pay2 (tileT2I x0 x1 x3) xs1 := by
  unfold sout0_B_1
  rw [View.read_writes_eq_canon _ _ _ (scover0_B_1 c i a2 h2 a3 h3 a4 h4 a5 h5 a6 h6 a7 h7 a8 h8 hc0 hc1 x0 x1 x2 x3 xs0 xs1)]
  unfold kernelRun0_B
  dsimp only
  sl_unfold_words
  rw [View.canon_unit_zero hz2]
  simp only [View.readAt_eq_ld, h2.read_unread, h3.read_unread, h4.read_unread, h5.read_unread, h7.read_unread,
    h8.read_unread, View.ld_unit_zero (S := S512x1024) hz2, View.ld_unit_zero (S := S1x1) hz2]

/-- The last tile of a core updates the two sums as a middle tile does. -/
theorem sumI2T_last (c : Dev nD) (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i)
    (x0 x1 x2 x3 : Vec F S512x1024 .f32) (xs0 xs1 : Vec F S1x1 .f32) :
    sout0_C_0 c i a2 h2 a3 h3 a4 h4 a5 h5 a6 h6 a7 h7 a8 h8 hc0 hc1 x0 x1 x2 x3 xs0 xs1 = k0_pay1 xs0 (tileI2T x0 x1 x2) := by
  unfold sout0_C_0
  rw [View.read_writes_eq_canon _ _ _ (scover0_C_0 c i a2 h2 a3 h3 a4 h4 a5 h5 a6 h6 a7 h7 a8 h8 hc0 hc1 x0 x1 x2 x3 xs0 xs1)]
  unfold kernelRun0_C
  dsimp only
  sl_unfold_words
  rw [View.canon_unit_zero hz2]
  simp only [View.readAt_eq_ld, h2.read_unread, h3.read_unread, h4.read_unread, h5.read_unread, h7.read_unread,
    h8.read_unread, View.ld_unit_zero (S := S512x1024) hz2, View.ld_unit_zero (S := S1x1) hz2]

theorem sumT2I_last (c : Dev nD) (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i)
    (x0 x1 x2 x3 : Vec F S512x1024 .f32) (xs0 xs1 : Vec F S1x1 .f32) :
    sout0_C_1 c i a2 h2 a3 h3 a4 h4 a5 h5 a6 h6 a7 h7 a8 h8 hc0 hc1 x0 x1 x2 x3 xs0 xs1 = k0_pay2 (tileT2I x0 x1 x3) xs1 := by
  unfold sout0_C_1
  rw [View.read_writes_eq_canon _ _ _ (scover0_C_1 c i a2 h2 a3 h3 a4 h4 a5 h5 a6 h6 a7 h7 a8 h8 hc0 hc1 x0 x1 x2 x3 xs0 xs1)]
  unfold kernelRun0_C
  dsimp only
  sl_unfold_words
  rw [View.canon_unit_zero hz2]
  simp only [View.readAt_eq_ld, h2.read_unread, h3.read_unread, h4.read_unread, h5.read_unread, h7.read_unread,
    h8.read_unread, View.ld_unit_zero (S := S512x1024) hz2, View.ld_unit_zero (S := S1x1) hz2]

/-- The last tile of a core writes the two updated sums into the core's output block. -/
theorem block_last (c : Dev nD) (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i)
    (x0 x1 x2 x3 : Vec F S512x1024 .f32) (xs0 xs1 : Vec F S1x1 .f32) :
    out0_C_4 c i a2 h2 a3 h3 a4 h4 a5 h5 a6 h6 a7 h7 a8 h8 hc0 hc1 x0 x1 x2 x3 xs0 xs1
      = k0_pay3 (k0_pay1 xs0 (tileI2T x0 x1 x2)) (k0_pay2 (tileT2I x0 x1 x3) xs1) := by
  unfold out0_C_4
  rw [View.read_writes_eq_canon _ _ _ (cover0_C_4 c i a2 h2 a3 h3 a4 h4 a5 h5 a6 h6 a7 h7 a8 h8 hc0 hc1 x0 x1 x2 x3 xs0 xs1)]
  unfold kernelRun0_C
  dsimp only
  sl_unfold_words
  rw [View.canon_unit_zero hz3]
  simp only [View.readCov_unit_zero (S := S1x1) _ hz2, View.readAt_eq_ld, h2.read_unread, h3.read_unread, h4.read_unread,
    h5.read_unread, h7.read_unread, h8.read_unread, View.ld_unit_zero (S := S512x1024) hz2, View.ld_unit_zero (S := S1x1) hz2]

end Cert.KernelIdeal.KVal

end
-- ==== Proof.LibColumn.lean ====
/-
  Two layout operations of a keepdims row reduction, read at an index: a vector of length a viewed as
  an a-by-1 column reads its own entry, and an a-by-1 column broadcast along the second axis to
  a-by-b reads the column's entry of the same row.
-/
import Idealize.ShloMosaic.Lib.ValueIdx
import Idealize.ShloMosaic.Lib.Pipeline.Value

namespace Cert.Splat.Column

open Idealize.ShloMosaic Idealize.ShloMosaic.ValueIdx

variable {α : Type}

/-- A length-a vector cast to an a-by-1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Splat.Column
-- ==== Proof.Loss.lean ====
/-
  The contrastive loss both programs compute, as ONE function of the argument arrays on the extended reals.

  Each row of an embedding matrix is divided by its Euclidean norm, floored at a small positive word; the
  similarity of image row `i` and text row `j` is the sum over the 1024 features of the products of the two
  unit rows. With `r(w)` the row an index word `w` names (a negative word counted from the end, then clamped
  into the matrix), the image-to-text loss of row `i` is the soft-plus of
  `sim(i, r(n₃ i)) / T - sim(i, i) / T`, the text-to-image loss the soft-plus of
  `sim(r(n₄ i), i) / T - sim(i, i) / T`; the result is the mean of the two means over the 8192 rows.
  The labels take no part.
-/
import Idealize.ShloMosaic.PureOps.Ideal
import Idealize.ShloMosaic.Lib.ValueIdx

noncomputable section

namespace Cert.Loss

open Idealize.ShloMosaic Idealize.ShloMosaic.ValueIdx

/-- An embedding matrix: 8192 rows of 1024 features. -/
abbrev Emb : Shape := ⟨2, ![8192, 1024]⟩
/-- A vector with one entry per row. -/
abbrev Rows : Shape := ⟨1, ![8192]⟩

/-- The Euclidean norm of row `i`, floored at the word `0x2B8CBCCC` (about `1e-12`). -/
def rowNorm (x : Emb.Idx → EReal) (i : Fin 8192) : EReal :=
  max (Ideal.sqrt (∑ k : Fin 1024, x (ix2 i k) * x (ix2 i k))) (Ideal.ofBits .f32 0x2B8CBCCC#32)

/-- Feature `k` of the unit row `i`. -/
def unit (x : Emb.Idx → EReal) (i : Fin 8192) (k : Fin 1024) : EReal :=
  Ideal.div (x (ix2 i k)) (rowNorm x i)

/-- The similarity of row `i` of `x` and row `j` of `y`: the inner product of the two unit rows. -/
def sim (x y : Emb.Idx → EReal) (i j : Fin 8192) : EReal :=
  ∑ k : Fin 1024, unit x i k * unit y j k

/-- The soft-plus `max z 0 + log (1 + exp (-|z|))`. -/
def softplus (z : EReal) : EReal :=
  max z 0 + Ideal.log1p (Ideal.exp (-(max z (-z))))

/-- The row an index word names: a negative word has 8192 added, and the result, read signed, is clamped
    into `[0, 8191]`. -/
def row (w : BitVec 32) : Fin 8192 :=
  ⟨min (Scalar.select (IntOp.cmpi .slt w 0#32) (IntOp.addi w 8192#32) w).toInt.toNat 8191, by omega⟩

/-- The temperature word (the float nearest to `0.07`). -/
abbrev temperature : EReal := Ideal.ofBits .f32 0x3D8F5C29#32

/-- The sum over the rows of the image-to-text losses. -/
def sumI2T (x y : Emb.Idx → EReal) (n : Rows.Idx → BitVec 32) : EReal :=
  ∑ i : Fin 8192, softplus (Ideal.div (sim x y i (row (n (ix1 i)))) temperature - Ideal.div (sim x y i i) temperature)

/-- The sum over the rows of the text-to-image losses. -/
def sumT2I (x y : Emb.Idx → EReal) (n : Rows.Idx → BitVec 32) : EReal :=
  ∑ i : Fin 8192, softplus (Ideal.div (sim x y (row (n (ix1 i))) i) temperature - Ideal.div (sim x y i i) temperature)

/-- The loss: the mean of the two means (the words `0x46000000` and `0x40000000` are `8192` and `2`). -/
def total (x y : Emb.Idx → EReal) (n3 n4 : Rows.Idx → BitVec 32) : EReal :=
  Ideal.div (Ideal.div (sumI2T x y n3) (Ideal.ofBits .f32 0x46000000#32)
    + Ideal.div (sumT2I x y n4) (Ideal.ofBits .f32 0x46000000#32)) (Ideal.ofBits .f32 0x40000000#32)

end Cert.Loss

end
-- ==== Proof.Temperature.lean ====
/-
  The temperature scale. The reference divides each similarity by the temperature word `0x3D8F5C29`, the
  dyadic `9395241 / 2^27` (the float nearest to 0.07); the kernel multiplies the DIFFERENCE of two similarities
  by the reciprocal of that same dyadic, `2^27 / 9395241`. On the extended reals a quotient by a nonzero real
  is the product with its reciprocal, and the product with a nonnegative real distributes over a difference
  at the infinities too, so `(a - b) · (1/T) = a / T - b / T` for ALL extended reals `a`, `b`: nothing about
  the inputs is used.
-/
import Idealize.ShloMosaic.PureOps.Ideal

noncomputable section

namespace Cert.Temperature

open Idealize.ShloMosaic

/-- The temperature word denotes the dyadic rational `9395241 / 134217728`. -/
theorem ofBits_temperature : Ideal.ofBits .f32 0x3D8F5C29#32 = ((9395241 / 134217728 : ℝ) : EReal) := by
  simp [Ideal.ofBits, Ideal.ieee, -EReal.coe_mul]; norm_num

/-- The zero word denotes `0`. -/
theorem ofBits_zero : Ideal.ofBits .f32 0x00000000#32 = 0 := by
  simp [Ideal.ofBits, Ideal.ieee]

/-- A difference scaled by the reciprocal temperature is the difference of the two quotients by the
    temperature, on all extended reals. -/
theorem sub_mul_inv_temperature (a b : EReal) :
    (a - b) * ((134217728 / 9395241 : ℝ) : EReal)
      = Ideal.div a ((9395241 / 134217728 : ℝ) : EReal) - Ideal.div b ((9395241 / 134217728 : ℝ) : EReal) := by
  have hT : (9395241 / 134217728 : ℝ) ≠ 0 := by norm_num
  have hc : (1 / (9395241 / 134217728 : ℝ)) = (134217728 / 9395241 : ℝ) := by norm_num
  rw [Ideal.div_coe hT, Ideal.div_coe hT, hc]
  exact EReal.sub_mul_of_nonneg_of_ne_top (by exact_mod_cast (by norm_num : (0 : ℝ) ≤ 134217728 / 9395241))
    (EReal.coe_ne_top _)

end Cert.Temperature

end
-- ==== Proof.KernelTile.lean ====
/-
  The body's arithmetic at one tile, read entry by entry on the extended reals.

  A tile is 512 rows of 1024 features of each of four matrices. A row is divided by its Euclidean norm floored
  at a small positive word (`unitRow`); the three inner products of unit rows give the positive similarity and
  the two negative ones; the loss of a row is the soft-plus of (negative - positive) times the reciprocal
  temperature; the tile contributes the sum of its 512 losses.
-/
import proofs.«131384_j13889924235452_2_alg».proof.Proof.Gen.KernelIdeal.Skeleton
import proofs.«131384_j13889924235452_2_alg».proof.Proof.LibColumn
import proofs.«131384_j13889924235452_2_alg».proof.Proof.Loss
import proofs.«131384_j13889924235452_2_alg».proof.Proof.Temperature
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.Tile

open Idealize.ShloMosaic Idealize.ShloMosaic.ValueIdx
open Cert.KernelIdeal Cert.KernelIdeal.Gen
open Cert.Splat

/-- A tile of one matrix. -/
abbrev Blk := FVec Ideal S512x1024 .f32

/-- The floored Euclidean norm of row `r` of a tile. -/
def rowNorm (x : Blk) (r : Fin 512) : EReal :=
  max (Ideal.sqrt (∑ k : Fin 1024, x (ix2 r k) * x (ix2 r k))) (Ideal.ofBits .f32 0x2B8CBCCC#32)

/-- Feature `k` of the unit row `r` of a tile. -/
def unitRow (x : Blk) (r : Fin 512) (k : Fin 1024) : EReal := Ideal.div (x (ix2 r k)) (rowNorm x r)

/-- The reciprocal temperature the body multiplies by. -/
abbrev invT : EReal := ((134217728 / 9395241 : ℝ) : EReal)

/-- The loss of one row from its negative and positive similarities. -/
def rowLoss (neg pos : EReal) : EReal := Cert.Loss.softplus ((neg - pos) * invT)

/-! ## Reductions and layout at an index -/

/-- A lane sum of a tile, at row `r`: the sum over the 1024 features. -/
theorem rowSum (src : Blk) (hφ : FKind.Formats .f32) (hacc : (0x00000000#32 : BitVec 32) = FKind.add.neutral .f32 hφ)
    (r : Fin 512) :
    multiReduction .add [1] S512 src 0x00000000#32 reduces_S512x1024_S512 hφ hacc (ix1 r)
      = ∑ k : Fin 1024, src (ix2 r k) := by
  refine (Ideal.multiReduction_add_single src _ reduces_S512x1024_S512 hφ hacc (ix1 r)).trans ?_
  refine Finset.sum_congr rfl fun k _ => congrArg src ?_
  funext a
  match a with
  | ⟨0, _⟩ => rfl
  | ⟨1, _⟩ => rfl

/-- A sum down a 512-entry column: the sum over the 512 rows. -/
theorem colSum (src : FVec Ideal S512x1 .f32) (hφ : FKind.Formats .f32)
    (hacc : (0x00000000#32 : BitVec 32) = FKind.add.neutral .f32 hφ) :
    multiReduction .add [0] S1 src 0x00000000#32 reduces_S512x1_S1 hφ hacc (ix1 (0 : Fin 1))
      = ∑ r : Fin 512, src (ix2 r (0 : Fin 1)) := by
  refine (Ideal.multiReduction_add_single src _ reduces_S512x1_S1 hφ hacc (ix1 (0 : Fin 1))).trans ?_
  refine Finset.sum_congr rfl fun k _ => congrArg src ?_
  funext a
  match a with
  | ⟨0, _⟩ => rfl
  | ⟨1, _⟩ => rfl

/-- The inner products of corresponding rows of two tiles, as a column, at row `r`. -/
theorem dotCol_apply (u v : Blk) (hφ : FKind.Formats .f32)
    (hacc : (0x00000000#32 : BitVec 32) = FKind.add.neutral .f32 hφ) (r : Fin 512) :
    shapeCast S512x1 (multiReduction .add [1] S512 (mulf u v) 0x00000000#32 reduces_S512x1024_S512 hφ hacc)
        shapeCasts_S512_S512x1 (ix2 r (0 : Fin 1))
      = ∑ k : Fin 1024, u (ix2 r k) * v (ix2 r k) :=
  (Column.shapeCast_a_a1_apply _ shapeCasts_S512_S512x1 r 0).trans (rowSum (mulf u v) hφ hacc r)

/-- The column of floored row norms of a tile, at row `r`. -/
theorem normCol_apply (x : Blk) (hφ : FKind.Formats .f32)
    (hacc : (0x00000000#32 : BitVec 32) = FKind.add.neutral .f32 hφ) (r : Fin 512) :
    maximumf (sqrt (shapeCast S512x1 (multiReduction .add [1] S512 (mulf x x) 0x00000000#32 reduces_S512x1024_S512 hφ hacc)
        shapeCasts_S512_S512x1)) (broadcast S512x1 (Scalar.ofBits (F := Ideal) .f32 0x2B8CBCCC#32)) (ix2 r (0 : Fin 1))
      = rowNorm x r := by
  unfold rowNorm
  exact congrArg (fun z => max (Ideal.sqrt z) (Ideal.ofBits .f32 0x2B8CBCCC#32)) (dotCol_apply x x hφ hacc r)

/-- A tile divided row by row by a column, at `(r, k)`. -/
theorem divCol_apply (x : Blk) (n : FVec Ideal S512x1 .f32) (r : Fin 512) (k : Fin 1024) :
    divf x (broadcastTo S512x1024 n broadcasts_S512x1_S512x1024) (ix2 r k)
      = Ideal.div (x (ix2 r k)) (n (ix2 r (0 : Fin 1))) :=
  congrArg (Ideal.div (x (ix2 r k))) (Column.broadcastTo_a1_ab_apply n broadcasts_S512x1_S512x1024 r k)

/-! ## The payloads -/

theorem unitImage_apply (x : Blk) (r : Fin 512) (k : Fin 1024) : k0_pay7 (F := Ideal) x (ix2 r k) = unitRow x r k := by
  unfold k0_pay7 unitRow
  dsimp only
  exact (divCol_apply x _ r k).trans (congrArg (Ideal.div (x (ix2 r k))) (normCol_apply x _ _ r))

theorem unitText_apply (x : Blk) (r : Fin 512) (k : Fin 1024) : k0_pay8 (F := Ideal) x (ix2 r k) = unitRow x r k := by
  unfold k0_pay8 unitRow
  dsimp only
  exact (divCol_apply x _ r k).trans (congrArg (Ideal.div (x (ix2 r k))) (normCol_apply x _ _ r))

theorem unitGatheredText_apply (x : Blk) (r : Fin 512) (k : Fin 1024) : k0_pay9 (F := Ideal) x (ix2 r k) = unitRow x r k := by
  unfold k0_pay9 unitRow
  dsimp only
  rw [shapeCast_self]
  exact (divCol_apply x _ r k).trans (congrArg (Ideal.div (x (ix2 r k))) (normCol_apply x _ _ r))

theorem gatheredImage_eq (x : Blk) : k0_pay6 (F := Ideal) x = x := by
  unfold k0_pay6
  dsimp only
  rw [shapeCast_self]

theorem gatheredImageNorm_apply (x : Blk) (r : Fin 512) : k0_pay10 (F := Ideal) x (ix2 r (0 : Fin 1)) = rowNorm x r := by
  unfold k0_pay10
  dsimp only
  rw [gatheredImage_eq]
  exact normCol_apply x _ _ r

theorem positive_apply (u v : Blk) (r : Fin 512) :
    k0_pay11 (F := Ideal) u v (ix2 r (0 : Fin 1)) = ∑ k : Fin 1024, u (ix2 r k) * v (ix2 r k) := by
  unfold k0_pay11
  dsimp only
  exact dotCol_apply u v _ _ r

/-! ## The soft-plus and the two loss payloads -/

/-- The body's reciprocal-temperature constant denotes `2^27 / 9395241`. -/
theorem invT_eq : Named.named (F := Ideal) Cert.KernelIdeal.κ "inv_temp" (φ := .f32) 0x41649249#32 = invT :=
  IdealRules.named_const.ideal_named_scalar _ _ _ _ rfl

/-- The body's soft-plus chain — the maximum with zero plus `log (1 + exp (0 - |z - 0|))`, behind a test
    `z - 0 ≠ z - 0` that never fires on the extended reals — is the soft-plus. -/
theorem softplus_chain (z : EReal) :
    Scalar.select (Ideal.cmp .one (z - Ideal.ofBits .f32 0x00000000#32) (z - Ideal.ofBits .f32 0x00000000#32))
        (z + Ideal.ofBits .f32 0x00000000#32)
        (max z (Ideal.ofBits .f32 0x00000000#32)
          + Ideal.log1p (Ideal.exp (Ideal.ofBits .f32 0x00000000#32
              - max (z - Ideal.ofBits .f32 0x00000000#32) (-(z - Ideal.ofBits .f32 0x00000000#32)))))
      = Cert.Loss.softplus z := by
  rw [Cert.Temperature.ofBits_zero, sub_zero, zero_sub]
  have h : Ideal.cmp .one z z = 0#1 := by simp [Ideal.cmp]
  rw [h, select_zero]
  rfl

/-- The tile's sum of image-to-text losses. -/
theorem tileI2T_apply (u v w : Blk) :
    k0_pay13 (F := Ideal) u v w (ix2 (0 : Fin 1) (0 : Fin 1))
      = ∑ r : Fin 512, rowLoss (∑ k : Fin 1024, u (ix2 r k) * w (ix2 r k)) (∑ k : Fin 1024, u (ix2 r k) * v (ix2 r k)) := by
  unfold k0_pay13
  dsimp only
  refine (Column.shapeCast_a_a1_apply _ shapeCasts_S1_S1x1 (0 : Fin 1) (0 : Fin 1)).trans ?_
  refine (colSum _ _ _).trans ?_
  refine Finset.sum_congr rfl fun r _ => ?_
  show Scalar.select _ _ _ = _
  refine (softplus_chain _).trans ?_
  unfold rowLoss
  refine congrArg Cert.Loss.softplus ?_
  show (_ - _) * _ = _
  rw [invT_eq]
  exact congrArg₂ (fun a b => (a - b) * invT) (dotCol_apply u w _ _ r) (positive_apply u v r)

/-- The tile's text-to-image loss of row `r`, from the gathered-image tile `g` and its column of norms `n`. -/
theorem tileT2I_apply (g u v : Blk) (n : FVec Ideal S512x1 .f32) (r : Fin 512) :
    k0_pay12 (F := Ideal) g u v n (ix2 r (0 : Fin 1))
      = rowLoss (∑ k : Fin 1024, Ideal.div (g (ix2 r k)) (n (ix2 r (0 : Fin 1))) * v (ix2 r k))
          (∑ k : Fin 1024, u (ix2 r k) * v (ix2 r k)) := by
  unfold k0_pay12
  dsimp only
  show Scalar.select _ _ _ = _
  refine (softplus_chain _).trans ?_
  unfold rowLoss
  refine congrArg Cert.Loss.softplus ?_
  show (_ - _) * _ = _
  rw [invT_eq]
  refine (congrArg₂ (fun a b => (a - b) * invT) (dotCol_apply _ v _ _ r) (positive_apply u v r)).trans ?_
  refine congrArg (fun s => (s - ∑ k : Fin 1024, u (ix2 r k) * v (ix2 r k)) * invT) (Finset.sum_congr rfl fun k _ => ?_)
  exact congrArg (· * v (ix2 r k)) (divCol_apply g n r k)

end Cert.KernelIdeal.Tile

end
-- ==== Proof.KernelOut.lean ====
/-
  The two running sums and the output block, read entry by entry on the extended reals.

  A running sum is one word. Adding a tile's contribution is the sum of two words; the cleared word is zero.
  At the last tile of a core the block written out is eight identical rows of 128 lanes: lane 0 the first
  running sum, lane 1 the second, the other 126 lanes zero.
-/
import proofs.«131384_j13889924235452_2_alg».proof.Proof.KernelTile
import Idealize.ShloMosaic.Lib.ValueLayout

noncomputable section

namespace Cert.KernelIdeal.Tile

open Idealize.ShloMosaic Idealize.ShloMosaic.ValueIdx
open Cert.KernelIdeal Cert.KernelIdeal.Gen
open Cert.Splat

/-- A one-word buffer. -/
abbrev Word := FVec Ideal S1x1 .f32

/-- The one index of a one-word buffer. -/
theorem idx_word (y : S1x1.Idx) : y = ix2 (0 : Fin 1) (0 : Fin 1) := by
  funext a
  match a with
  | ⟨0, _⟩ => exact Fin.ext (by have := idx2_lt0 y; show (y 0).val = 0; omega)
  | ⟨1, _⟩ => exact Fin.ext (by have := idx2_lt1 y; show (y 1).val = 0; omega)

/-- The cleared first sum is zero. -/
theorem clearedI2T_apply (y : S1x1.Idx) : k0_pay4 (F := Ideal) y = 0 := by
  unfold k0_pay4
  (try dsimp only)
  rw [shapeCast_self]
  exact Cert.Temperature.ofBits_zero

/-- The cleared second sum is zero. -/
theorem clearedT2I_apply (y : S1x1.Idx) : k0_pay5 (F := Ideal) y = 0 := by
  unfold k0_pay5
  (try dsimp only)
  rw [shapeCast_self]
  exact Cert.Temperature.ofBits_zero

/-- The first sum after a tile: the sum before plus the tile's contribution. -/
theorem addI2T_apply (acc : Word) (tile : Word) (y : S1x1.Idx) : k0_pay1 (F := Ideal) acc tile y = acc y + tile y := by
  unfold k0_pay1
  (try dsimp only)
  rw [shapeCast_self]
  rfl

/-- The second sum after a tile: the sum before plus the sum of the tile's 512 row losses. -/
theorem addT2I_apply (rows : FVec Ideal S512x1 .f32) (acc : Word) (y : S1x1.Idx) :
    k0_pay2 (F := Ideal) rows acc y = acc y + ∑ r : Fin 512, rows (ix2 r (0 : Fin 1)) := by
  unfold k0_pay2
  (try dsimp only)
  rw [shapeCast_self, idx_word y]
  exact congrArg (acc (ix2 (0 : Fin 1) (0 : Fin 1)) + ·)
    ((Column.shapeCast_a_a1_apply _ shapeCasts_S1_S1x1 (0 : Fin 1) (0 : Fin 1)).trans (colSum rows _ _))

/-- The row of 128 lanes the last tile builds, at lane 0: the first sum. -/
theorem lanes_zero (a b : Word) (z : FVec Ideal S1x126 .f32) :
    concatenate S1x128 1 [⟨S1x1, a⟩, ⟨S1x1, b⟩, ⟨S1x126, z⟩] concatenates_S1x1_S1x1_S1x126_S1x128_d1
        (ix2 (0 : Fin 1) (0 : Fin 128)) = a (ix2 (0 : Fin 1) (0 : Fin 1)) :=
  concatenate_apply_piece (t := S1x128) (1 : Fin 2) [⟨S1x1, a⟩, ⟨S1x1, b⟩, ⟨S1x126, z⟩] concatenates_S1x1_S1x1_S1x126_S1x128_d1
    (ix2 (0 : Fin 1) (0 : Fin 128)) 0 (by show 0 < 3; decide) S1x1 a rfl rfl 0 rfl
    (ix2 (0 : Fin 1) (0 : Fin 1)) (fun b hb => by
      match b with
      | ⟨0, _⟩ => rfl
      | ⟨1, _⟩ => exact absurd rfl hb) rfl

/-- The row of 128 lanes the last tile builds, at lane 1: the second sum. -/
theorem lanes_one (a b : Word) (z : FVec Ideal S1x126 .f32) :
    concatenate S1x128 1 [⟨S1x1, a⟩, ⟨S1x1, b⟩, ⟨S1x126, z⟩] concatenates_S1x1_S1x1_S1x126_S1x128_d1
        (ix2 (0 : Fin 1) (1 : Fin 128)) = b (ix2 (0 : Fin 1) (0 : Fin 1)) :=
  concatenate_apply_piece (t := S1x128) (1 : Fin 2) [⟨S1x1, a⟩, ⟨S1x1, b⟩, ⟨S1x126, z⟩] concatenates_S1x1_S1x1_S1x126_S1x128_d1
    (ix2 (0 : Fin 1) (1 : Fin 128)) 1 (by show 1 < 3; decide) S1x1 b rfl rfl 1 rfl
    (ix2 (0 : Fin 1) (0 : Fin 1)) (fun b hb => by
      match b with
      | ⟨0, _⟩ => rfl
      | ⟨1, _⟩ => exact absurd rfl hb) rfl

/-- The block the last tile writes, at row `s` and lane 0: the first sum. -/
theorem block_lane_zero (a b : Word) (s : Fin 8) :
    k0_pay3 (F := Ideal) a b (ix3 (0 : Fin 1) s (0 : Fin 128)) = a (ix2 (0 : Fin 1) (0 : Fin 1)) := by
  unfold k0_pay3
  (try dsimp only)
  rw [shapeCast_ab_1ab_apply _ shapeCasts_S8x128_S1x8x128 (0 : Fin 1) s (0 : Fin 128),
    broadcastTo_1b_ab_apply _ broadcasts_S1x128_S8x128 s (0 : Fin 128), shapeCast_self]
  exact lanes_zero a b _

/-- The block the last tile writes, at row `s` and lane 1: the second sum. -/
theorem block_lane_one (a b : Word) (s : Fin 8) :
    k0_pay3 (F := Ideal) a b (ix3 (0 : Fin 1) s (1 : Fin 128)) = b (ix2 (0 : Fin 1) (0 : Fin 1)) := by
  unfold k0_pay3
  (try dsimp only)
  rw [shapeCast_ab_1ab_apply _ shapeCasts_S8x128_S1x8x128 (0 : Fin 1) s (1 : Fin 128),
    broadcastTo_1b_ab_apply _ broadcasts_S1x128_S8x128 s (1 : Fin 128), shapeCast_self]
  exact lanes_one a b _

end Cert.KernelIdeal.Tile

end
-- ==== Proof.KernelSums.lean ====
/-
  The two running sums after each tile.

  The grid runs the sixteen tiles in order, eight per core. Position `n` is tile `n % 8` of core `n / 8`. After
  position `n` the first running sum holds the image-to-text contributions of the tiles `n - n % 8, …, n` of the
  current core, the second the text-to-image ones: the clearing at the first tile of a core starts the sum anew.
  This is an induction over the position; nothing is enumerated.
-/
import proofs.«131384_j13889924235452_2_alg».proof.Proof.KernelPieces
import proofs.«131384_j13889924235452_2_alg».proof.Proof.KernelOut

noncomputable section

namespace Cert.KernelIdeal.Sums

open Idealize.ShloMosaic Idealize.ShloMosaic.TcCoe Idealize.SL.Sem Idealize.ShloMosaic.ValueIdx
open Cert.KernelIdeal Cert.KernelIdeal.Gen Cert.KernelIdeal.KVal Cert.KernelIdeal.Tile

variable (m : (ℓ : Loc nD τ sig) → Buf (Elt Ideal) ℓ)

/-! ## What each kind of tile leaves in the two sums and in the output block -/

theorem first_I2T (c : Dev nD) (t : Fin cfg0.N) (h0 : t.val % 8 = 0) (h1 : ¬t.val % 8 = 7) :
    (outsAt0 m c t.val t.isLt).2.1 = k0_pay1 (k0_pay4 (F := Ideal)) (tileI2T (iblk m c 0 t) (iblk m c 1 t) (iblk m c 2 t)) := by
  rw [outsAt0_A m c t h0 h1]
  exact sumI2T_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

theorem first_T2I (c : Dev nD) (t : Fin cfg0.N) (h0 : t.val % 8 = 0) (h1 : ¬t.val % 8 = 7) :
    (outsAt0 m c t.val t.isLt).2.2 = k0_pay2 (tileT2I (iblk m c 0 t) (iblk m c 1 t) (iblk m c 3 t)) (k0_pay5 (F := Ideal)) := by
  rw [outsAt0_A m c t h0 h1]
  exact sumT2I_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

theorem middle_I2T (c : Dev nD) (t : Fin cfg0.N) (h0 : ¬t.val % 8 = 0) (h1 : ¬t.val % 8 = 7) :
    (outsAt0 m c t.val t.isLt).2.1
      = k0_pay1 (outsAt0 m c (t.val - 1) (Nat.lt_of_le_of_lt (Nat.sub_le _ _) t.isLt)).2.1 (tileI2T (iblk m c 0 t) (iblk m c 1 t) (iblk m c 2 t)) := by
  rw [outsAt0_B m c t h0 h1]
  exact sumI2T_middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

theorem middle_T2I (c : Dev nD) (t : Fin cfg0.N) (h0 : ¬t.val % 8 = 0) (h1 : ¬t.val % 8 = 7) :
    (outsAt0 m c t.val t.isLt).2.2
      = k0_pay2 (tileT2I (iblk m c 0 t) (iblk m c 1 t) (iblk m c 3 t)) (outsAt0 m c (t.val - 1) (Nat.lt_of_le_of_lt (Nat.sub_le _ _) t.isLt)).2.2 := by
  rw [outsAt0_B m c t h0 h1]
  exact sumT2I_middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

theorem last_I2T (c : Dev nD) (t : Fin cfg0.N) (h0 : ¬t.val % 8 = 0) (h1 : t.val % 8 = 7) :
    (outsAt0 m c t.val t.isLt).2.1
      = k0_pay1 (outsAt0 m c (t.val - 1) (Nat.lt_of_le_of_lt (Nat.sub_le _ _) t.isLt)).2.1 (tileI2T (iblk m c 0 t) (iblk m c 1 t) (iblk m c 2 t)) := by
  rw [outsAt0_C m c t h0 h1]
  exact sumI2T_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

theorem last_T2I (c : Dev nD) (t : Fin cfg0.N) (h0 : ¬t.val % 8 = 0) (h1 : t.val % 8 = 7) :
    (outsAt0 m c t.val t.isLt).2.2
      = k0_pay2 (tileT2I (iblk m c 0 t) (iblk m c 1 t) (iblk m c 3 t)) (outsAt0 m c (t.val - 1) (Nat.lt_of_le_of_lt (Nat.sub_le _ _) t.isLt)).2.2 := by
  rw [outsAt0_C m c t h0 h1]
  exact sumT2I_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-- The block the last tile of a core leaves: the two sums as they stand after that tile. -/
theorem last_block (c : Dev nD) (t : Fin cfg0.N) (h0 : ¬t.val % 8 = 0) (h1 : t.val % 8 = 7) :
    (outsAt0 m c t.val t.isLt).1
      = k0_pay3 (outsAt0 m c t.val t.isLt).2.1 (outsAt0 m c t.val t.isLt).2.2 := by
  rw [last_I2T m c t h0 h1, last_T2I m c t h0 h1, outsAt0_C m c t h0 h1]
  exact block_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-! ## A tile's two contributions -/

/-- The image-to-text contribution of the tile at a position: the sum over its 512 rows of the row losses. -/
def contribI2T (c : Dev nD) (t : Fin cfg0.N) : EReal :=
  ∑ r : Fin 512, rowLoss (∑ k : Fin 1024, unitRow (iblk m c 0 t) r k * unitRow (iblk m c 2 t) r k)
    (∑ k : Fin 1024, unitRow (iblk m c 0 t) r k * unitRow (iblk m c 1 t) r k)

/-- The text-to-image contribution of the tile at a position. -/
def contribT2I (c : Dev nD) (t : Fin cfg0.N) : EReal :=
  ∑ r : Fin 512, rowLoss (∑ k : Fin 1024, unitRow (iblk m c 3 t) r k * unitRow (iblk m c 1 t) r k)
    (∑ k : Fin 1024, unitRow (iblk m c 0 t) r k * unitRow (iblk m c 1 t) r k)

theorem tileI2T_word (c : Dev nD) (t : Fin cfg0.N) (y : S1x1.Idx) :
    tileI2T (F := Ideal) (iblk m c 0 t) (iblk m c 1 t) (iblk m c 2 t) y = contribI2T m c t := by
  rw [idx_word y]
  unfold contribI2T
  refine (tileI2T_apply _ _ _).trans ?_
  refine Finset.sum_congr rfl fun r _ => ?_
  refine congrArg₂ rowLoss (Finset.sum_congr rfl fun k _ => ?_) (Finset.sum_congr rfl fun k _ => ?_)
  · exact congrArg₂ (· * ·) (unitImage_apply _ r k) (unitGatheredText_apply _ r k)
  · exact congrArg₂ (· * ·) (unitImage_apply _ r k) (unitText_apply _ r k)

theorem tileT2I_rows (c : Dev nD) (t : Fin cfg0.N) :
    ∑ r : Fin 512, tileT2I (F := Ideal) (iblk m c 0 t) (iblk m c 1 t) (iblk m c 3 t) (ix2 r (0 : Fin 1))
      = contribT2I m c t := by
  unfold contribT2I
  refine Finset.sum_congr rfl fun r _ => ?_
  refine (tileT2I_apply _ _ _ _ r).trans ?_
  refine congrArg₂ rowLoss (Finset.sum_congr rfl fun k _ => ?_) (Finset.sum_congr rfl fun k _ => ?_)
  · exact congrArg₂ (· * ·) (congrArg₂ Ideal.div (congrFun (gatheredImage_eq _) (ix2 r k)) (gatheredImageNorm_apply _ r))
      (unitText_apply _ r k)
  · exact congrArg₂ (· * ·) (unitImage_apply _ r k) (unitText_apply _ r k)

/-! ## The running sums in closed form -/

/-- A position's image-to-text contribution, by the position's number (zero past the grid). -/
def cI (c : Dev nD) (j : ℕ) : EReal := if h : j < cfg0.N then contribI2T m c ⟨j, h⟩ else 0
/-- A position's text-to-image contribution, by the position's number (zero past the grid). -/
def cT (c : Dev nD) (j : ℕ) : EReal := if h : j < cfg0.N then contribT2I m c ⟨j, h⟩ else 0

/-- The first running sum after position `n`: the contributions of the current core's tiles so far. -/
def accI (c : Dev nD) (n : ℕ) : EReal := ∑ j ∈ Finset.range (n % 8 + 1), cI m c (n - n % 8 + j)
/-- The second running sum after position `n`. -/
def accT (c : Dev nD) (n : ℕ) : EReal := ∑ j ∈ Finset.range (n % 8 + 1), cT m c (n - n % 8 + j)

theorem accI_first (c : Dev nD) (n : ℕ) (h : n < cfg0.N) (h0 : n % 8 = 0) : accI m c n = contribI2T m c ⟨n, h⟩ := by
  unfold accI cI
  simp only [h0, Nat.zero_add, Nat.sub_zero, Finset.sum_range_one, Nat.add_zero, dif_pos h]

theorem accT_first (c : Dev nD) (n : ℕ) (h : n < cfg0.N) (h0 : n % 8 = 0) : accT m c n = contribT2I m c ⟨n, h⟩ := by
  unfold accT cT
  simp only [h0, Nat.zero_add, Nat.sub_zero, Finset.sum_range_one, Nat.add_zero, dif_pos h]

theorem accI_step (c : Dev nD) (n : ℕ) (h : n + 1 < cfg0.N) (h0 : ¬(n + 1) % 8 = 0) :
    accI m c (n + 1) = accI m c n + contribI2T m c ⟨n + 1, h⟩ := by
  have e1 : (n + 1) % 8 = n % 8 + 1 := by omega
  have e2 : n + 1 - (n % 8 + 1) = n - n % 8 := by omega
  have e3 : n - n % 8 + (n % 8 + 1) = n + 1 := by omega
  unfold accI
  rw [e1, e2, Finset.sum_range_succ, e3]
  unfold cI
  rw [dif_pos h]

theorem accT_step (c : Dev nD) (n : ℕ) (h : n + 1 < cfg0.N) (h0 : ¬(n + 1) % 8 = 0) :
    accT m c (n + 1) = accT m c n + contribT2I m c ⟨n + 1, h⟩ := by
  have e1 : (n + 1) % 8 = n % 8 + 1 := by omega
  have e2 : n + 1 - (n % 8 + 1) = n - n % 8 := by omega
  have e3 : n - n % 8 + (n % 8 + 1) = n + 1 := by omega
  unfold accT
  rw [e1, e2, Finset.sum_range_succ, e3]
  unfold cT
  rw [dif_pos h]

/-- After every position the two scratch words hold the two running sums. -/
theorem sums_eq (c : Dev nD) : ∀ (n : ℕ) (h : n < cfg0.N),
    (∀ y, (outsAt0 m c n h).2.1 y = accI m c n) ∧ (∀ y, (outsAt0 m c n h).2.2 y = accT m c n)
  | 0, h => by
    have e1 : (outsAt0 m c 0 h).2.1 = _ := first_I2T m c ⟨0, h⟩ (Nat.zero_mod 8) (by show ¬0 % 8 = 7; decide)
    have e2 : (outsAt0 m c 0 h).2.2 = _ := first_T2I m c ⟨0, h⟩ (Nat.zero_mod 8) (by show ¬0 % 8 = 7; decide)
    refine ⟨fun y => ?_, fun y => ?_⟩
    · rw [e1, addI2T_apply, clearedI2T_apply, zero_add, tileI2T_word]
      exact (accI_first m c 0 h (Nat.zero_mod 8)).symm
    · rw [e2, addT2I_apply, clearedT2I_apply, zero_add, tileT2I_rows]
      exact (accT_first m c 0 h (Nat.zero_mod 8)).symm
  | n + 1, h => by
    have hN : cfg0.N = 16 := N_0
    obtain ⟨ih1, ih2⟩ := sums_eq c n (Nat.lt_of_succ_lt h)
    by_cases h0 : (n + 1) % 8 = 0
    · have h1 : ¬(n + 1) % 8 = 7 := by omega
      have e1 : (outsAt0 m c (n + 1) h).2.1 = _ := first_I2T m c ⟨n + 1, h⟩ h0 h1
      have e2 : (outsAt0 m c (n + 1) h).2.2 = _ := first_T2I m c ⟨n + 1, h⟩ h0 h1
      refine ⟨fun y => ?_, fun y => ?_⟩
      · rw [e1, addI2T_apply, clearedI2T_apply, zero_add, tileI2T_word]
        exact (accI_first m c (n + 1) h h0).symm
      · rw [e2, addT2I_apply, clearedT2I_apply, zero_add, tileT2I_rows]
        exact (accT_first m c (n + 1) h h0).symm
    · by_cases h1 : (n + 1) % 8 = 7
      · have e1 : (outsAt0 m c (n + 1) h).2.1 = k0_pay1 (outsAt0 m c n (Nat.lt_of_succ_lt h)).2.1 _ :=
          last_I2T m c ⟨n + 1, h⟩ h0 h1
        have e2 : (outsAt0 m c (n + 1) h).2.2 = k0_pay2 _ (outsAt0 m c n (Nat.lt_of_succ_lt h)).2.2 :=
          last_T2I m c ⟨n + 1, h⟩ h0 h1
        refine ⟨fun y => ?_, fun y => ?_⟩
        · rw [e1, addI2T_apply, ih1, tileI2T_word]
          exact (accI_step m c n h h0).symm
        · rw [e2, addT2I_apply, ih2, tileT2I_rows]
          exact (accT_step m c n h h0).symm
      · have e1 : (outsAt0 m c (n + 1) h).2.1 = k0_pay1 (outsAt0 m c n (Nat.lt_of_succ_lt h)).2.1 _ :=
          middle_I2T m c ⟨n + 1, h⟩ h0 h1
        have e2 : (outsAt0 m c (n + 1) h).2.2 = k0_pay2 _ (outsAt0 m c n (Nat.lt_of_succ_lt h)).2.2 :=
          middle_T2I m c ⟨n + 1, h⟩ h0 h1
        refine ⟨fun y => ?_, fun y => ?_⟩
        · rw [e1, addI2T_apply, ih1, tileI2T_word]
          exact (accI_step m c n h h0).symm
        · rw [e2, addT2I_apply, ih2, tileT2I_rows]
          exact (accT_step m c n h h0).symm

end Cert.KernelIdeal.Sums

end
-- ==== Proof.KernelFinal.lean ====
/-
  The output array after the region.

  The output is two blocks of eight rows of 128 lanes, one per core; a core's block is written back once, after
  the core's last tile. So the array ends holding, in block `q`, what the last tile of core `q` (position
  `8 q + 7`) left in the output buffer; the two blocks cover the array.
-/
import proofs.«131384_j13889924235452_2_alg».proof.Proof.KernelSums

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Tile Cert.KernelIdeal.Sums

variable (m : (ℓ : Loc nD τ sig) → Buf (Elt Ideal) ℓ)

/-- The position of the last tile of the core that owns block `q` is inside the grid. -/
theorem last_lt (q : ℕ) (hq : q < 2) : 8 * q + 7 < cfg0.N := by
  have hN : cfg0.N = 16 := N_0
  omega

/-- The output array after the region: block `q` is the block the last tile of core `q` left. -/
def outArr (c : Dev nD) : S2x8x128.Idx → EReal := fun i =>
  (outsAt0 m c (8 * (i 0).val + 7) (last_lt (i 0).val (i 0).isLt)).1
    (ix3 (0 : Fin 1) (⟨(i 1).val, (i 1).isLt⟩ : Fin 8) (⟨(i 2).val, (i 2).isLt⟩ : Fin 128))

/-- What a position left in the output buffer depends on the position's number only. -/
theorem outsAt_congr (c : Dev nD) {n n' : ℕ} (e : n = n') (h : n < cfg0.N) (h' : n' < cfg0.N) :
    (outsAt0 m c n h).1 = (outsAt0 m c n' h').1 := by
  subst e
  rfl

/-- The output window's block index at a position: the core's number on the first axis, zero on the others. -/
theorem out_index : ∀ t : Fin cfg0.N, win0_4.index t (0 : Fin 3) = t.val / 8 ∧ win0_4.index t (1 : Fin 3) = 0
    ∧ win0_4.index t (2 : Fin 3) = 0 :=
  (by decide +kernel : ∀ t : Fin grid0.N, _)

/-- What a writing-back position writes back is its block of `outArr`. -/
theorem flushed_eq (c : Dev nD) (t : Fin cfg0.N) (hf : (cfg0.win 4).flush t = true) :
    (dats m 0 c).flushed 4 t = ((cfg0.win 4).blk t).view.read (Elt Ideal) (outArr m c) := by
  have h7 : t.val % 8 = 7 := (flush0_4 t).mp hf
  obtain ⟨e0, e1, e2⟩ := out_index t
  show (cfg0.win 4).cut (grid0.coords t) ((dats m 0 c).after 4 t) = _
  rw [after0_4]
  funext y
  show (outsAt0 m c t.val t.isLt).1 y = outArr m c (((cfg0.win 4).blk t).view.emb y)
  unfold outArr
  have hy0 : (y 0).val < 1 := (y 0).isLt
  have hy1 : (y 1).val < 8 := (y 1).isLt
  have hy2 : (y 2).val < 128 := (y 2).isLt
  have c0 : ((((cfg0.win 4).blk t).view.emb y) 0).val = t.val / 8 := by
    show win0_4.index t (0 : Fin 3) * 1 + 1 * (y 0).val = _
    omega
  have c1 : ((((cfg0.win 4).blk t).view.emb y) 1).val = (y 1).val := by
    show win0_4.index t (1 : Fin 3) * 8 + 1 * (y 1).val = _
    omega
  have c2 : ((((cfg0.win 4).blk t).view.emb y) 2).val = (y 2).val := by
    show win0_4.index t (2 : Fin 3) * 128 + 1 * (y 2).val = _
    omega
  rw [outsAt_congr m c (show 8 * ((((cfg0.win 4).blk t).view.emb y) 0).val + 7 = t.val by omega) _ t.isLt]
  refine congrArg (outsAt0 m c t.val t.isLt).1 ?_
  funext a
  match a with
  | ⟨0, _⟩ => exact Fin.ext (by show (y 0).val = 0; omega)
  | ⟨1, _⟩ => exact Fin.ext c1.symm
  | ⟨2, _⟩ => exact Fin.ext c2.symm

/-- An index of the array is in a position's block iff each coordinate is in the block's range on its axis. -/
theorem mem_blk (t : Fin cfg0.N) (i : S2x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v14).slice (win0_4.rect t)).set ↔ _
  rw [View.set_slice_whole, Rect.mem_set_unit]
  exact Iff.rfl

/-- Every index of the array is in the block of its core's last position. -/
theorem cover (c : Dev nD) (i : S2x8x128.Idx) :
    ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 128 := (i 2).isLt
  refine ⟨⟨8 * (i 0).val + 7, last_lt _ hi0⟩, (flush0_4 _).mpr (by show (8 * (i 0).val + 7) % 8 = 7; omega), ?_⟩
  obtain ⟨e0, e1, e2⟩ := out_index ⟨8 * (i 0).val + 7, last_lt _ hi0⟩
  have e0' : win0_4.index ⟨8 * (i 0).val + 7, last_lt _ hi0⟩ (0 : Fin 3) = (i 0).val := by
    rw [e0]; show (8 * (i 0).val + 7) / 8 = _; omega
  rw [mem_blk]
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 8 ≤ (i 1).val ∧ (i 1).val < win0_4.index _ (1 : Fin 3) * 8 + 8
    omega
  | ⟨2, _⟩ =>
    show win0_4.index _ (2 : Fin 3) * 128 ≤ (i 2).val ∧ (i 2).val < win0_4.index _ (2 : Fin 3) * 128 + 128
    omega

/-- The output array after the region is `outArr`. -/
theorem final (c : Dev nD) : (dats m 0 c).arrAt 4 cfg0.N = outArr m c :=
  (dats m 0 c).arrAt_eq_of_cover 4 (outArr m c) (flushed_eq m c) (cover c)

/-- Lane 0 of row 0 of block `q`: the image-to-text sum of core `q`'s eight tiles. -/
theorem outArr_lane_zero (c : Dev nD) (q : Fin 2) :
    outArr m c (ix3 q (0 : Fin 8) (0 : Fin 128)) = accI m c (8 * q.val + 7) := by
  have hN : cfg0.N = 16 := N_0
  have hq : q.val < 2 := q.isLt
  unfold outArr
  show (outsAt0 m c (8 * q.val + 7) (last_lt q.val hq)).1 (ix3 (0 : Fin 1) (0 : Fin 8) (0 : Fin 128)) = _
  have hb := last_block m c ⟨8 * q.val + 7, last_lt q.val hq⟩ (by show ¬(8 * q.val + 7) % 8 = 0; omega)
    (by show (8 * q.val + 7) % 8 = 7; omega)
  refine (congrFun hb _).trans ?_
  rw [block_lane_zero]
  exact (sums_eq m c (8 * q.val + 7) (last_lt q.val hq)).1 _

/-- Lane 1 of row 0 of block `q`: the text-to-image sum of core `q`'s eight tiles. -/
theorem outArr_lane_one (c : Dev nD) (q : Fin 2) :
    outArr m c (ix3 q (0 : Fin 8) (1 : Fin 128)) = accT m c (8 * q.val + 7) := by
  have hN : cfg0.N = 16 := N_0
  have hq : q.val < 2 := q.isLt
  unfold outArr
  show (outsAt0 m c (8 * q.val + 7) (last_lt q.val hq)).1 (ix3 (0 : Fin 1) (0 : Fin 8) (1 : Fin 128)) = _
  have hb := last_block m c ⟨8 * q.val + 7, last_lt q.val hq⟩ (by show ¬(8 * q.val + 7) % 8 = 0; omega)
    (by show (8 * q.val + 7) % 8 = 7; omega)
  refine (congrFun hb _).trans ?_
  rw [block_lane_one]
  exact (sums_eq m c (8 * q.val + 7) (last_lt q.val hq)).2 _

end Cert.KernelIdeal.Final

end
-- ==== Proof.KernelHost.lean ====
/-
  The four tiles at a grid position, as rows of the argument arrays.

  Position `t` reads rows `512 t, …, 512 t + 511` of each of the four matrices the kernel is called with. Two
  of them are the arguments themselves; the other two are row gathers the host makes before the call: row `i`
  of the gathered text matrix is the text row named by the index word `n₃ i` (a negative word counted from the
  end, then clamped into the matrix), and likewise the gathered image matrix by `n₄`.
-/
import proofs.«131384_j13889924235452_2_alg».proof.Proof.Gen.KernelIdeal.Frame
import proofs.«131384_j13889924235452_2_alg».proof.Proof.Loss
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.HostSide

open Idealize.ShloMosaic Idealize.ShloMosaic.TcCoe Idealize.SL.Sem Idealize.ShloMosaic.ValueIdx
open Idealize.ShloMosaic.StableHlo
open Cert.KernelIdeal Cert.KernelIdeal.Gen

/-! ## A row gather read at an index -/

/-- The row gather of a matrix at a column of index words: entry `(i, k)` is the matrix at the row the word
    `idx (i, 0)`, read signed and clamped into `[0, 8191]`, names, and column `k`. -/
theorem rowGather_apply {α : Type} (x : S8192x1024.Idx → α) (idx : IVec S8192x1 32) (i : Fin 8192) (k : Fin 1024) :
    Host.gather gather_S8192x1024_S8192x1_S8192x1024_1_0_n_n_0_1_11024 x idx (ix2 i k)
      = x (ix2 (⟨min (idx (ix2 i (0 : Fin 1))).toInt.toNat 8191, by omega⟩ : Fin 8192) k) := by
  unfold Host.gather
  refine congrArg x ?_
  funext a
  refine Fin.ext ?_
  match a with
  | ⟨0, _⟩ =>
    show gather_S8192x1024_S8192x1_S8192x1024_1_0_n_n_0_1_11024.start (ix2 i k) idx 0
      + gather_S8192x1024_S8192x1_S8192x1024_1_0_n_n_0_1_11024.batchCoord (ix2 i k) 0
      + gather_S8192x1024_S8192x1_S8192x1024_1_0_n_n_0_1_11024.offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S8192x1_S8192x1024_1_0_n_n_0_1_11024.startIndexMap from
      List.mem_singleton.mpr rfl)]
    have hsi : gather_S8192x1024_S8192x1_S8192x1024_1_0_n_n_0_1_11024.siIdx (ix2 i k)
        ⟨List.idxOf (0 : Fin 2) gather_S8192x1024_S8192x1_S8192x1024_1_0_n_n_0_1_11024.startIndexMap,
          List.idxOf_lt_length_iff.2 (List.mem_singleton.mpr rfl)⟩ = ix2 i (0 : Fin 1) := by
      funext b
      refine Fin.ext ?_
      match b with
      | ⟨0, _⟩ => rfl
      | ⟨1, _⟩ => rfl
    rw [hsi]
    rfl
  | ⟨1, _⟩ =>
    show gather_S8192x1024_S8192x1_S8192x1024_1_0_n_n_0_1_11024.start (ix2 i k) idx 1
      + gather_S8192x1024_S8192x1_S8192x1024_1_0_n_n_0_1_11024.batchCoord (ix2 i k) 1
      + gather_S8192x1024_S8192x1_S8192x1024_1_0_n_n_0_1_11024.offCoord (ix2 i k) 1 = k.val
    rw [GatherDims.batchCoord_eq_zero _ _ _ List.not_mem_nil]
    unfold GatherDims.start
    rw [dif_neg (show ¬(1 : Fin 2) ∈ gather_S8192x1024_S8192x1_S8192x1024_1_0_n_n_0_1_11024.startIndexMap from by decide)]
    simp only [Nat.add_zero, Nat.zero_add]
    rfl

/-! ## The index words, normalised, as a column -/

/-- The column of index words the host hands the gather: at row `i` the word `n i`, with 8192 added when it is
    negative. -/
theorem wordsCol_apply (n : IVec S8192 32) (i : Fin 8192) :
    broadcastInDim S8192x1 ![0] bcast_S8192_S8192x1_0
        (select (cmpi .slt n (broadcastInDim S8192 ![] bcast_S_S8192 (constantI S_ 32 0#32)))
          (addi n (broadcastInDim S8192 ![] bcast_S_S8192 (constantI S_ 32 8192#32))) n) (ix2 i (0 : Fin 1))
      = Scalar.select (IntOp.cmpi .slt (n (ix1 i)) 0#32) (IntOp.addi (n (ix1 i)) 8192#32) (n (ix1 i)) := by
  refine (broadcastInDim_apply _ bcast_S8192_S8192x1_0 _ (ix2 i (0 : Fin 1)) (ix1 i) (fun a => match a with
    | ⟨0, _⟩ => by show i.val = if (8192 : Nat) = 1 then 0 else i.val; rw [if_neg (by decide)])).trans ?_
  show Scalar.select (IntOp.cmpi .slt (n (ix1 i)) (broadcastInDim S8192 ![] bcast_S_S8192 (constantI S_ 32 0#32) (ix1 i)))
    (IntOp.addi (n (ix1 i)) (broadcastInDim S8192 ![] bcast_S_S8192 (constantI S_ 32 8192#32) (ix1 i))) (n (ix1 i)) = _
  rw [broadcastInDim_apply _ bcast_S_S8192 (constantI S_ 32 0#32) (ix1 i) ix0 (fun a => a.elim0),
    broadcastInDim_apply _ bcast_S_S8192 (constantI S_ 32 8192#32) (ix1 i) ix0 (fun a => a.elim0)]
  rfl

/-- The gathered matrix at `(i, k)`: the matrix at the row the word `n i` names and column `k`. -/
theorem gathered_apply (x : S8192x1024.Idx → EReal) (n : IVec S8192 32) (i : Fin 8192) (k : Fin 1024) :
    Host.gather gather_S8192x1024_S8192x1_S8192x1024_1_0_n_n_0_1_11024 x
        (broadcastInDim S8192x1 ![0] bcast_S8192_S8192x1_0
          (select (cmpi .slt n (broadcastInDim S8192 ![] bcast_S_S8192 (constantI S_ 32 0#32)))
            (addi n (broadcastInDim S8192 ![] bcast_S_S8192 (constantI S_ 32 8192#32))) n)) (ix2 i k)
      = x (ix2 (Cert.Loss.row (n (ix1 i))) k) := by
  refine (rowGather_apply x _ i k).trans (congrArg (fun r => x (ix2 r k)) (Fin.ext ?_))
  show min (_ : BitVec 32).toInt.toNat 8191 = min (_ : BitVec 32).toInt.toNat 8191
  rw [wordsCol_apply n i]

/-! ## What the region finds in the two gathered matrices -/

variable (m : (ℓ : Loc nD τ sig) → Buf (Elt Ideal) ℓ)

/-- The gathered text matrix as the region finds it. -/
theorem V_gatheredText (c : Dev nD) (i : Fin 8192) (k : Fin 1024) :
    (V m c main_v6 : S8192x1024.Idx → EReal) (ix2 i k)
      = m ((c : Thread nD τ).loc main_arg1) (ix2 (Cert.Loss.row (m ((c : Thread nD τ).loc main_arg3) (ix1 i))) k) := by
  have e : (V m c main_v6 : S8192x1024.Idx → EReal)
      = Host.gather gather_S8192x1024_S8192x1_S8192x1024_1_0_n_n_0_1_11024 (m (c, Proc.tc.devRef main_arg1))
        (broadcastInDim S8192x1 ![0] bcast_S8192_S8192x1_0
          (select (cmpi .slt (m (c, Proc.tc.devRef main_arg3)) (broadcastInDim S8192 ![] bcast_S_S8192 (constantI S_ 32 0#32)))
            (addi (m (c, Proc.tc.devRef main_arg3)) (broadcastInDim S8192 ![] bcast_S_S8192 (constantI S_ 32 8192#32)))
            (m (c, Proc.tc.devRef main_arg3)))) := by
    show StableHlo.after hostOps0 (fun b => m (c, b)) (Proc.devRef .tc main_v6) = _
    after_results
  rw [e]
  exact gathered_apply _ _ i k

/-- The gathered image matrix as the region finds it. -/
theorem V_gatheredImage (c : Dev nD) (i : Fin 8192) (k : Fin 1024) :
    (V m c main_v13 : S8192x1024.Idx → EReal) (ix2 i k)
      = m ((c : Thread nD τ).loc main_arg0) (ix2 (Cert.Loss.row (m ((c : Thread nD τ).loc main_arg4) (ix1 i))) k) := by
  have e : (V m c main_v13 : S8192x1024.Idx → EReal)
      = Host.gather gather_S8192x1024_S8192x1_S8192x1024_1_0_n_n_0_1_11024 (m (c, Proc.tc.devRef main_arg0))
        (broadcastInDim S8192x1 ![0] bcast_S8192_S8192x1_0
          (select (cmpi .slt (m (c, Proc.tc.devRef main_arg4)) (broadcastInDim S8192 ![] bcast_S_S8192 (constantI S_ 32 0#32)))
            (addi (m (c, Proc.tc.devRef main_arg4)) (broadcastInDim S8192 ![] bcast_S_S8192 (constantI S_ 32 8192#32)))
            (m (c, Proc.tc.devRef main_arg4)))) := by
    show StableHlo.after hostOps0 (fun b => m (c, b)) (Proc.devRef .tc main_v13) = _
    after_results
  rw [e]
  exact gathered_apply _ _ i k

/-! ## The tiles are rows of the matrices -/

/-- The four input windows move together: at position `t` each reads block `t` of 512 rows, all 1024 columns. -/
theorem in_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- Row `r` of the tile at position `t` is row `512 t + r` of the matrix. -/
theorem row_lt (t : Fin cfg0.N) (r : Fin 512) : 512 * t.val + r.val < 8192 := by
  have hN : cfg0.N = 16 := N_0
  have := t.isLt
  have := r.isLt
  omega

/-- The image tile at a position. -/
theorem image_tile (c : Dev nD) (t : Fin cfg0.N) (r : Fin 512) (k : Fin 1024) :
    (iblk m c 0 t : S512x1024.Idx → EReal) (ix2 r k)
      = m ((c : Thread nD τ).loc main_arg0) (ix2 (⟨512 * t.val + r.val, row_lt t r⟩ : Fin 8192) k) := by
  obtain ⟨⟨e0, e1⟩, -, -, -⟩ := in_index t
  unfold iblk
  rw [View.read_apply]
  show V m c main_arg0 _ = _
  rw [V_main_arg0]
  refine congrArg _ (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega

/-- The text tile at a position. -/
theorem text_tile (c : Dev nD) (t : Fin cfg0.N) (r : Fin 512) (k : Fin 1024) :
    (iblk m c 1 t : S512x1024.Idx → EReal) (ix2 r k)
      = m ((c : Thread nD τ).loc main_arg1) (ix2 (⟨512 * t.val + r.val, row_lt t r⟩ : Fin 8192) k) := by
  obtain ⟨-, ⟨e0, e1⟩, -, -⟩ := in_index t
  unfold iblk
  rw [View.read_apply]
  show V m c main_arg1 _ = _
  rw [V_main_arg1]
  refine congrArg _ (funext fun a => Fin.ext ?_)
  match a with
  | ⟨0, _⟩ => show win0_1.index t (0 : Fin 2) * 512 + 1 * r.val = 512 * t.val + r.val; omega
  | ⟨1, _⟩ => show win0_1.index t (1 : Fin 2) * 1024 + 1 * k.val = k.val; omega

/-- The gathered-text tile at a position. -/
theorem gatheredText_tile (c : Dev nD) (t : Fin cfg0.N) (r : Fin 512) (k : Fin 1024) :
    (iblk m c 2 t : S512x1024.Idx → EReal) (ix2 r k)
      = m ((c : Thread nD τ).loc main_arg1)
          (ix2 (Cert.Loss.row (m ((c : Thread nD τ).loc main_arg3) (ix1 (⟨512 * t.val + r.val, row_lt t r⟩ : Fin 8192)))) k) := by
  obtain ⟨-, -, ⟨e0, e1⟩, -⟩ := in_index t
  refine Eq.trans ?_ (V_gatheredText m c ⟨512 * t.val + r.val, row_lt t r⟩ k)
  unfold iblk
  rw [View.read_apply]
  show V m c main_v6 _ = V m c main_v6 _
  refine congrArg _ (funext fun a => Fin.ext ?_)
  match a with
  | ⟨0, _⟩ => show win0_2.index t (0 : Fin 2) * 512 + 1 * r.val = 512 * t.val + r.val; omega
  | ⟨1, _⟩ => show win0_2.index t (1 : Fin 2) * 1024 + 1 * k.val = k.val; omega

/-- The gathered-image tile at a position. -/
theorem gatheredImage_tile (c : Dev nD) (t : Fin cfg0.N) (r : Fin 512) (k : Fin 1024) :
    (iblk m c 3 t : S512x1024.Idx → EReal) (ix2 r k)
      = m ((c : Thread nD τ).loc main_arg0)
          (ix2 (Cert.Loss.row (m ((c : Thread nD τ).loc main_arg4) (ix1 (⟨512 * t.val + r.val, row_lt t r⟩ : Fin 8192)))) k) := by
  obtain ⟨-, -, -, ⟨e0, e1⟩⟩ := in_index t
  refine Eq.trans ?_ (V_gatheredImage m c ⟨512 * t.val + r.val, row_lt t r⟩ k)
  unfold iblk
  rw [View.read_apply]
  show V m c main_v13 _ = V m c main_v13 _
  refine congrArg _ (funext fun a => Fin.ext ?_)
  match a with
  | ⟨0, _⟩ => show win0_3.index t (0 : Fin 2) * 512 + 1 * r.val = 512 * t.val + r.val; omega
  | ⟨1, _⟩ => show win0_3.index t (1 : Fin 2) * 1024 + 1 * k.val = k.val; omega

end Cert.KernelIdeal.HostSide

end
-- ==== Proof.Bridge.lean ====
/-
  From the kernel's tile-by-tile sums to the loss over the 8192 rows.

  Row `r` of the tile at position `t` is row `512 t + r` of the matrices, so a tile's unit rows are the
  matrices' unit rows and its inner products the similarities. The kernel scales the difference of two
  similarities by the reciprocal temperature where the reference divides each by the temperature: the same
  extended real. The sixteen tiles of 512 rows are the 8192 rows, two cores of eight tiles each; a sum over
  all rows taken block by block is the sum over all rows.
-/
import proofs.«131384_j13889924235452_2_alg».proof.Proof.KernelFinal
import proofs.«131384_j13889924235452_2_alg».proof.Proof.KernelHost

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Tile Cert.KernelIdeal.Sums Cert.KernelIdeal.Final
open Cert.KernelIdeal.HostSide

/-! ## Sums taken block by block -/

/-- A sum over `a * b` consecutive numbers, taken as `a` blocks of `b`. -/
theorem sum_blocks {M : Type} [AddCommMonoid M] (a b : ℕ) (g : ℕ → M) :
    ∑ x : Fin a, ∑ y : Fin b, g (b * x.val + y.val) = ∑ i : Fin (a * b), g i.val := by
  rw [← (finProdFinEquiv (m := a) (n := b)).sum_comp (fun i => g i.val), Fintype.sum_prod_type]
  refine Finset.sum_congr rfl fun x _ => Finset.sum_congr rfl fun y _ => ?_
  show g (b * x.val + y.val) = g (y.val + b * x.val)
  rw [Nat.add_comm]

/-! ## A tile's rows are the matrices' rows -/

/-- The unit row of a tile whose row `r` is row `i` of a matrix is that matrix's unit row `i`. -/
theorem unitRow_of_row (x : Blk) (X : Cert.Loss.Emb.Idx → EReal) (r : Fin 512) (i : Fin 8192)
    (h : ∀ k : Fin 1024, x (ix2 r k) = X (ix2 i k)) (k : Fin 1024) : unitRow x r k = Cert.Loss.unit X i k := by
  unfold unitRow Cert.Loss.unit Tile.rowNorm Cert.Loss.rowNorm
  simp only [h]

/-- The kernel's row loss — the difference of two similarities scaled by the reciprocal temperature — is the
    soft-plus of the difference of the two similarities each divided by the temperature. -/
theorem rowLoss_eq (neg pos : EReal) :
    rowLoss neg pos
      = Cert.Loss.softplus (Ideal.div neg Cert.Loss.temperature - Ideal.div pos Cert.Loss.temperature) := by
  unfold rowLoss
  rw [show Cert.Loss.temperature = ((9395241 / 134217728 : ℝ) : EReal) from Cert.Temperature.ofBits_temperature]
  exact congrArg Cert.Loss.softplus (Cert.Temperature.sub_mul_inv_temperature neg pos)

/-- The image-to-text loss of row `i`. -/
def lossI2T (X Y : Cert.Loss.Emb.Idx → EReal) (n : Cert.Loss.Rows.Idx → BitVec 32) (i : Fin 8192) : EReal :=
  Cert.Loss.softplus (Ideal.div (Cert.Loss.sim X Y i (Cert.Loss.row (n (ix1 i)))) Cert.Loss.temperature
    - Ideal.div (Cert.Loss.sim X Y i i) Cert.Loss.temperature)

/-- The text-to-image loss of row `i`. -/
def lossT2I (X Y : Cert.Loss.Emb.Idx → EReal) (n : Cert.Loss.Rows.Idx → BitVec 32) (i : Fin 8192) : EReal :=
  Cert.Loss.softplus (Ideal.div (Cert.Loss.sim X Y (Cert.Loss.row (n (ix1 i))) i) Cert.Loss.temperature
    - Ideal.div (Cert.Loss.sim X Y i i) Cert.Loss.temperature)

variable (m : (ℓ : Loc nD τ sig) → Buf (Elt Ideal) ℓ)

/-- A tile's image-to-text contribution is the sum of the losses of its 512 rows of the matrices. -/
theorem contribI2T_eq (c : Dev nD) (t : Fin cfg0.N) :
    contribI2T m c t = ∑ r : Fin 512, lossI2T (m ((c : Thread nD τ).loc main_arg0)) (m ((c : Thread nD τ).loc main_arg1))
      (m ((c : Thread nD τ).loc main_arg3)) ⟨512 * t.val + r.val, row_lt t r⟩ := by
  unfold contribI2T
  refine Finset.sum_congr rfl fun r _ => ?_
  rw [rowLoss_eq]
  unfold lossI2T Cert.Loss.sim
  refine congrArg₂ (fun a b => Cert.Loss.softplus (Ideal.div a Cert.Loss.temperature - Ideal.div b Cert.Loss.temperature))
    (Finset.sum_congr rfl fun k _ => ?_) (Finset.sum_congr rfl fun k _ => ?_)
  · exact congrArg₂ (· * ·) (unitRow_of_row _ _ r _ (fun k' => image_tile m c t r k') k)
      (unitRow_of_row _ _ r _ (fun k' => gatheredText_tile m c t r k') k)
  · exact congrArg₂ (· * ·) (unitRow_of_row _ _ r _ (fun k' => image_tile m c t r k') k)
      (unitRow_of_row _ _ r _ (fun k' => text_tile m c t r k') k)

/-- A tile's text-to-image contribution is the sum of the losses of its 512 rows of the matrices. -/
theorem contribT2I_eq (c : Dev nD) (t : Fin cfg0.N) :
    contribT2I m c t = ∑ r : Fin 512, lossT2I (m ((c : Thread nD τ).loc main_arg0)) (m ((c : Thread nD τ).loc main_arg1))
      (m ((c : Thread nD τ).loc main_arg4)) ⟨512 * t.val + r.val, row_lt t r⟩ := by
  unfold contribT2I
  refine Finset.sum_congr rfl fun r _ => ?_
  rw [rowLoss_eq]
  unfold lossT2I Cert.Loss.sim
  refine congrArg₂ (fun a b => Cert.Loss.softplus (Ideal.div a Cert.Loss.temperature - Ideal.div b Cert.Loss.temperature))
    (Finset.sum_congr rfl fun k _ => ?_) (Finset.sum_congr rfl fun k _ => ?_)
  · exact congrArg₂ (· * ·) (unitRow_of_row _ _ r _ (fun k' => gatheredImage_tile m c t r k') k)
      (unitRow_of_row _ _ r _ (fun k' => text_tile m c t r k') k)
  · exact congrArg₂ (· * ·) (unitRow_of_row _ _ r _ (fun k' => image_tile m c t r k') k)
      (unitRow_of_row _ _ r _ (fun k' => text_tile m c t r k') k)

/-! ## Two cores of eight tiles of 512 rows are the 8192 rows -/

/-- A row loss by the row's number (zero past the matrix). -/
def byNumber (f : Fin 8192 → EReal) (n : ℕ) : EReal := if h : n < 8192 then f ⟨n, h⟩ else 0

/-- The sum, over the two cores, of what a running sum holds after a core's last tile, when the tile at position
    `j` contributes the sum of `f` over rows `512 j, …, 512 j + 511`: the sum of `f` over all rows. -/
theorem sum_cores (f : Fin 8192 → EReal) (contrib : ℕ → EReal)
    (hc : ∀ j : ℕ, j < 16 → contrib j = ∑ r : Fin 512, byNumber f (512 * j + r.val)) :
    ∑ q : Fin 2, ∑ j ∈ Finset.range 8, contrib (8 * q.val + j) = ∑ i : Fin 8192, f i := by
  have h1 : ∀ q : Fin 2, ∑ j ∈ Finset.range 8, contrib (8 * q.val + j)
      = ∑ j : Fin 8, (fun n => ∑ r : Fin 512, byNumber f (512 * n + r.val)) (8 * q.val + j.val) := fun q => by
    rw [Finset.sum_range]
    refine Finset.sum_congr rfl fun j _ => hc _ ?_
    have := q.isLt
    have := j.isLt
    omega
  rw [Finset.sum_congr rfl fun q _ => h1 q, sum_blocks 2 8 (fun n => ∑ r : Fin 512, byNumber f (512 * n + r.val))]
  show ∑ n : Fin 16, ∑ r : Fin 512, byNumber f (512 * n.val + r.val) = _
  rw [sum_blocks 16 512 (byNumber f)]
  show ∑ i : Fin 8192, byNumber f i.val = _
  refine Finset.sum_congr rfl fun i _ => ?_
  unfold byNumber
  rw [dif_pos i.isLt]

/-- What the first running sum holds after the last tile of core `q`. -/
theorem accI_last (c : Dev nD) (q : Fin 2) :
    accI m c (8 * q.val + 7) = ∑ j ∈ Finset.range 8, cI m c (8 * q.val + j) := by
  have e1 : (8 * q.val + 7) % 8 = 7 := by omega
  have e2 : 8 * q.val + 7 - 7 = 8 * q.val := by omega
  unfold accI
  rw [e1, e2]

/-- What the second running sum holds after the last tile of core `q`. -/
theorem accT_last (c : Dev nD) (q : Fin 2) :
    accT m c (8 * q.val + 7) = ∑ j ∈ Finset.range 8, cT m c (8 * q.val + j) := by
  have e1 : (8 * q.val + 7) % 8 = 7 := by omega
  have e2 : 8 * q.val + 7 - 7 = 8 * q.val := by omega
  unfold accT
  rw [e1, e2]

/-- The two cores' image-to-text sums add up to the sum of the image-to-text losses over all rows. -/
theorem sumI2T_eq (c : Dev nD) :
    ∑ q : Fin 2, accI m c (8 * q.val + 7)
      = Cert.Loss.sumI2T (m ((c : Thread nD τ).loc main_arg0)) (m ((c : Thread nD τ).loc main_arg1))
          (m ((c : Thread nD τ).loc main_arg3)) := by
  have hN : cfg0.N = 16 := N_0
  rw [Finset.sum_congr rfl fun q _ => accI_last m c q]
  refine (sum_cores (lossI2T (m ((c : Thread nD τ).loc main_arg0)) (m ((c : Thread nD τ).loc main_arg1))
    (m ((c : Thread nD τ).loc main_arg3))) (cI m c) fun j hj => ?_).trans rfl
  have hj' : j < cfg0.N := by omega
  unfold cI
  rw [dif_pos hj', contribI2T_eq]
  refine Finset.sum_congr rfl fun r _ => ?_
  unfold byNumber
  rw [dif_pos (row_lt ⟨j, hj'⟩ r)]

/-- The two cores' text-to-image sums add up to the sum of the text-to-image losses over all rows. -/
theorem sumT2I_eq (c : Dev nD) :
    ∑ q : Fin 2, accT m c (8 * q.val + 7)
      = Cert.Loss.sumT2I (m ((c : Thread nD τ).loc main_arg0)) (m ((c : Thread nD τ).loc main_arg1))
          (m ((c : Thread nD τ).loc main_arg4)) := by
  have hN : cfg0.N = 16 := N_0
  rw [Finset.sum_congr rfl fun q _ => accT_last m c q]
  refine (sum_cores (lossT2I (m ((c : Thread nD τ).loc main_arg0)) (m ((c : Thread nD τ).loc main_arg1))
    (m ((c : Thread nD τ).loc main_arg4))) (cT m c) fun j hj => ?_).trans rfl
  have hj' : j < cfg0.N := by omega
  unfold cT
  rw [dif_pos hj', contribT2I_eq]
  refine Finset.sum_congr rfl fun r _ => ?_
  unfold byNumber
  rw [dif_pos (row_lt ⟨j, hj'⟩ r)]

end Cert.KernelIdeal.Bridge

end
-- ==== Proof.TailRead.lean ====
/-
  The host tail of the kernel program, as one function of the region's output array, read at its one index.

  The tail takes the `[2, 1, 2]` corner of the `[2, 8, 128]` output (rows `q`, sublane 0, lanes 0 and 1), views it
  as `[2, 2]`, sums it over the rows from the zero word, and for each of the two lanes divides that column sum by
  the row count word; the result is the sum of the two quotients divided by the word of 2.
-/
import proofs.«131384_j13889924235452_2_alg».proof.Proof.Gen.KernelIdeal.Launch
import proofs.«131384_j13889924235452_2_alg».proof.Proof.Temperature
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tail

open Idealize.ShloMosaic Idealize.ShloMosaic.ValueIdx Cert.KernelIdeal Cert.KernelIdeal.Gen
open scoped BigOperators

/-- The host tail as a function of the output array `A`. -/
def tailOf (A : S2x8x128.Idx → EReal) : S_.Idx → EReal :=
  Host.divf (F := Ideal)
    (addf
      (Host.divf (F := Ideal)
        (shapeCast S_ (extractStridedSlice S1 ![0]
          (Host.reduceAdd (F := Ideal) (shapeCast S2x2 (extractStridedSlice S2x1x2 ![0, 0, 0] A slices_S2x8x128_S2x1x2_0_0_0) shapeCasts_S2x1x2_S2x2)
            (constant (F := Ideal) S_ .f32 0x00000000#32) reducesTo_S2x2_S2_d0 h_S_) slices_S2_S1_0) shapeCasts_S1_S_)
        (constant (F := Ideal) S_ .f32 0x46000000#32))
      (Host.divf (F := Ideal)
        (shapeCast S_ (extractStridedSlice S1 ![1]
          (Host.reduceAdd (F := Ideal) (shapeCast S2x2 (extractStridedSlice S2x1x2 ![0, 0, 0] A slices_S2x8x128_S2x1x2_0_0_0) shapeCasts_S2x1x2_S2x2)
            (constant (F := Ideal) S_ .f32 0x00000000#32) reducesTo_S2x2_S2_d0 h_S_) slices_S2_S1_1) shapeCasts_S1_S_)
        (constant (F := Ideal) S_ .f32 0x46000000#32)))
    (constant (F := Ideal) S_ .f32 0x40000000#32)

/-- The `[2, 2]` view of the output's corner at `(q, l)` is the output at row `q`, sublane 0, lane `l`: the
    view keeps the row-major position, and the corner starts at the origin. -/
theorem corner_apply (A : S2x8x128.Idx → EReal) (q l : Fin 2) (l' : Fin 128) (hl : l'.val = l.val) :
    shapeCast S2x2 (extractStridedSlice S2x1x2 ![0, 0, 0] A slices_S2x8x128_S2x1x2_0_0_0) shapeCasts_S2x1x2_S2x2 (ix2 q l)
      = A (ix3 q (0 : Fin 8) l') := by
  refine (shapeCast_apply _ shapeCasts_S2x1x2_S2x2 (ix2 q l) (ix3 q (0 : Fin 1) l) ?_).trans ?_
  · rw [Shape.rowMajor_val_three, Shape.rowMajor_val_two]
    show (q.val * 1 + 0) * 2 + l.val = q.val * 2 + l.val
    omega
  · exact extractStridedSlice_apply _ A slices_S2x8x128_S2x1x2_0_0_0 (ix3 q (0 : Fin 1) l) (ix3 q (0 : Fin 8) l')
      (fun a => match a with
        | ⟨0, _⟩ => by show q.val = 0 + q.val; omega
        | ⟨1, _⟩ => by show (0 : Nat) = 0 + 0; rfl
        | ⟨2, _⟩ => by show l'.val = 0 + l.val; omega)

/-- The host sum of a `[2, 2]` array over its rows from the zero word, at lane `l`: the sum of the column. -/
theorem colSum_apply (X : S2x2.Idx → EReal) (l : Fin 2) :
    Host.reduceAdd (F := Ideal) X (constant (F := Ideal) S_ .f32 0x00000000#32) reducesTo_S2x2_S2_d0 h_S_ (ix1 l)
      = ∑ q : Fin 2, X (ix2 q l) := by
  simp only [Host.reduceAdd, Ideal.hostReduceAdd_def]
  rw [Ideal.hostReduceAdd_single reducesTo_S2x2_S2_d0 (by decide), constant_apply, Cert.Temperature.ofBits_zero, zero_add]
  refine Finset.sum_congr rfl fun q _ => ?_
  exact congrArg X (funext fun a => Fin.ext (by match a with | ⟨0, _⟩ => rfl | ⟨1, _⟩ => rfl))

/-- The one index of the scalar shape is at row-major position 0. -/
theorem rowMajor_scalar (i : S_.Idx) : (S_.rowMajor i).val = 0 := by
  have h := (S_.rowMajor i).isLt
  have h1 : S_.numel = 1 := by decide
  omega

/-- Lane 0 of a length-2 vector, cut out and viewed as a scalar. -/
theorem pick0_apply (Y : S2.Idx → EReal) (i : S_.Idx) :
    shapeCast S_ (extractStridedSlice S1 ![0] Y slices_S2_S1_0) shapeCasts_S1_S_ i = Y (ix1 (0 : Fin 2)) := by
  refine (shapeCast_apply _ shapeCasts_S1_S_ i (ix1 (0 : Fin 1)) ?_).trans ?_
  · rw [Shape.rowMajor_val_one, rowMajor_scalar]; rfl
  · exact extractStridedSlice_apply _ Y slices_S2_S1_0 (ix1 (0 : Fin 1)) (ix1 (0 : Fin 2))
      (fun a => match a with | ⟨0, _⟩ => rfl)

/-- Lane 1 of a length-2 vector, cut out and viewed as a scalar. -/
theorem pick1_apply (Y : S2.Idx → EReal) (i : S_.Idx) :
    shapeCast S_ (extractStridedSlice S1 ![1] Y slices_S2_S1_1) shapeCasts_S1_S_ i = Y (ix1 (1 : Fin 2)) := by
  refine (shapeCast_apply _ shapeCasts_S1_S_ i (ix1 (0 : Fin 1)) ?_).trans ?_
  · rw [Shape.rowMajor_val_one, rowMajor_scalar]; rfl
  · exact extractStridedSlice_apply _ Y slices_S2_S1_1 (ix1 (0 : Fin 1)) (ix1 (1 : Fin 2))
      (fun a => match a with | ⟨0, _⟩ => rfl)

/-- THE TAIL AT ITS ONE INDEX: the mean of the two lanes' column sums over the row count. -/
theorem tailOf_apply (A : S2x8x128.Idx → EReal) (i : S_.Idx) :
    tailOf A i = Ideal.div
      (Ideal.div (∑ q : Fin 2, A (ix3 q (0 : Fin 8) (0 : Fin 128))) (Ideal.ofBits .f32 0x46000000#32)
        + Ideal.div (∑ q : Fin 2, A (ix3 q (0 : Fin 8) (1 : Fin 128))) (Ideal.ofBits .f32 0x46000000#32))
      (Ideal.ofBits .f32 0x40000000#32) := by
  have e0 : shapeCast S_ (extractStridedSlice S1 ![0]
      (Host.reduceAdd (F := Ideal) (shapeCast S2x2 (extractStridedSlice S2x1x2 ![0, 0, 0] A slices_S2x8x128_S2x1x2_0_0_0) shapeCasts_S2x1x2_S2x2)
        (constant (F := Ideal) S_ .f32 0x00000000#32) reducesTo_S2x2_S2_d0 h_S_) slices_S2_S1_0) shapeCasts_S1_S_ i
      = ∑ q : Fin 2, A (ix3 q (0 : Fin 8) (0 : Fin 128)) := by
    rw [pick0_apply, colSum_apply]
    exact Finset.sum_congr rfl fun q _ => corner_apply A q 0 0 rfl
  have e1 : shapeCast S_ (extractStridedSlice S1 ![1]
      (Host.reduceAdd (F := Ideal) (shapeCast S2x2 (extractStridedSlice S2x1x2 ![0, 0, 0] A slices_S2x8x128_S2x1x2_0_0_0) shapeCasts_S2x1x2_S2x2)
        (constant (F := Ideal) S_ .f32 0x00000000#32) reducesTo_S2x2_S2_d0 h_S_) slices_S2_S1_1) shapeCasts_S1_S_ i
      = ∑ q : Fin 2, A (ix3 q (0 : Fin 8) (1 : Fin 128)) := by
    rw [pick1_apply, colSum_apply]
    exact Finset.sum_congr rfl fun q _ => corner_apply A q 1 1 rfl
  rw [← e0, ← e1]
  rfl

end Cert.KernelIdeal.Tail

end
-- ==== Proof.KernelRun.lean ====
/-
  The kernel program's run, read: its result is the loss.

  After the region the host takes lanes 0 and 1 of row 0 of the two output blocks, adds the two cores' sums lane
  by lane, divides each by 8192, adds the two and halves. Lane 0 of block `q` is core `q`'s image-to-text sum and
  lane 1 its text-to-image sum, and the two cores' sums add up to the sums over all 8192 rows.
-/
import proofs.«131384_j13889924235452_2_alg».proof.Proof.Bridge
import proofs.«131384_j13889924235452_2_alg».proof.Proof.TailRead
import Idealize.ShloMosaic.Lib.StableHlo.Run
import Idealize.ShloMosaic.Lib.Tactic

noncomputable section

namespace Cert.KernelIdeal.Result

open Idealize.ShloMosaic Idealize.ShloMosaic.TcCoe Idealize.SL.Sem Idealize.ShloMosaic.ValueIdx
open Idealize.ShloMosaic.StableHlo
open Cert.KernelIdeal Cert.KernelIdeal.Gen Cert.KernelIdeal.Final Cert.KernelIdeal.Bridge Cert.KernelIdeal.Sums

variable (m : (ℓ : Loc nD τ sig) → Buf (Elt Ideal) ℓ) (ρ : Dev nD → PrngReg)

/-- The loss of the arguments core `c` was launched with. -/
abbrev loss (c : Dev nD) : Buf (Elt Ideal) ((c.tc : Thread nD τ).loc main_v25) := fun _ =>
  Cert.Loss.total (m ((c : Thread nD τ).loc main_arg0)) (m ((c : Thread nD τ).loc main_arg1))
    (m ((c : Thread nD τ).loc main_arg3)) (m ((c : Thread nD τ).loc main_arg4))

/-- The host operations after the region, applied to the output array the region leaves. -/
theorem tail_value (c : Dev nD) :
    Pipeline.afterTail₀ cfgs (dats m) 0 (V0 m) [hostOps1] c main_v25 = Cert.KernelIdeal.Tail.tailOf (outArr m c) := by
  have hA : Pipeline.withArrays (cfgs 0).spec c (V0 m c) (fun w => (dats m 0 c).arrAt w (cfgs 0).N)
      (Proc.tc.devRef main_v14) = outArr m c :=
    (Pipeline.withArrays_arr spec0 launch0.win.arr_inj c _ _ 4).trans (final m c)
  unfold Pipeline.afterTail₀
  show StableHlo.after hostOps1 _ (Proc.devRef .tc main_v25) = _
  after_results
  rw [hA]
  rfl

/-- The program's result is the loss. -/
theorem result_value (c : Dev nD) :
    Pipeline.afterTail₀ cfgs (dats m) 0 (V0 m) [hostOps1] c main_v25 = loss m c := by
  rw [tail_value]
  funext i
  rw [Cert.KernelIdeal.Tail.tailOf_apply]
  show _ = Cert.Loss.total _ _ _ _
  unfold Cert.Loss.total
  rw [← sumI2T_eq m c, ← sumT2I_eq m c]
  simp only [outArr_lane_zero, outArr_lane_one]

/-- Every weakly fair execution of the kernel program terminates with its result at the loss of the arguments
    and the arguments unchanged. -/
theorem run : θ_run defs (onTc (τ := τ) (main (F := Ideal))) ⟨m, fun _ => 0, ρ⟩ (fun r => ∀ c : Dev nD,
      r.2.mem ((c.tc : Thread nD τ).loc main_v25) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v25 (Pipeline.mem_restRefs_of main_v25 (by decide) (by decide))).trans (result_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefGather.lean ====
/-
  The three shape operations of the reference that read an operand at a data-dependent or piecewise place,
  read at an index: the point gather of the similarity matrix at a two-column array of start indices, the
  two-column array as the concatenation of two one-column arrays, and the normalised iota column.
-/
import proofs.«131384_j13889924235452_2_alg».proof.Proof.Gen.ReferenceIdeal.Read
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-- The point gather of an `[8192, 8192]` operand at an `[8192, 2]` array of start indices, read at row `i`:
    the operand at the row `idx[i, 0]` and the column `idx[i, 1]`, each read signed and clamped into
    `[0, 8191]`. Both operand axes are collapsed (slice size one) and neither is a batching axis, so on each
    axis the operand coordinate is the clamped start alone. -/
theorem gather_point_apply {α : Type} {w : Nat} (A : S8192x8192.Idx → α) (idx : IVec S8192x2 w) (i : Fin 8192) :
    Host.gather gather_S8192x8192_S8192x2_S8192_n_01_n_n_01_1_11 A idx (ix1 i)
      = A (ix2 (⟨min (idx (ix2 i 0)).toInt.toNat 8191, by omega⟩ : Fin 8192)
               (⟨min (idx (ix2 i 1)).toInt.toNat 8191, by omega⟩ : Fin 8192)) := by
  unfold Host.gather
  congr 1
  funext a
  refine Fin.ext ?_
  match a with
  | ⟨0, _⟩ =>
    show gather_S8192x8192_S8192x2_S8192_n_01_n_n_01_1_11.start (ix1 i) idx 0
      + gather_S8192x8192_S8192x2_S8192_n_01_n_n_01_1_11.batchCoord (ix1 i) 0
      + gather_S8192x8192_S8192x2_S8192_n_01_n_n_01_1_11.offCoord (ix1 i) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x8192_S8192x2_S8192_n_01_n_n_01_1_11.startIndexMap by decide)]
    have hsi : gather_S8192x8192_S8192x2_S8192_n_01_n_n_01_1_11.siIdx (ix1 i)
        ⟨List.idxOf (0 : Fin 2) gather_S8192x8192_S8192x2_S8192_n_01_n_n_01_1_11.startIndexMap,
          List.idxOf_lt_length_iff.2 (by decide)⟩ = ix2 i 0 := by
      funext b; refine Fin.ext ?_
      match b with
      | ⟨0, _⟩ => rfl
      | ⟨1, _⟩ => rfl
    rw [hsi]
    rfl
  | ⟨1, _⟩ =>
    show gather_S8192x8192_S8192x2_S8192_n_01_n_n_01_1_11.start (ix1 i) idx 1
      + gather_S8192x8192_S8192x2_S8192_n_01_n_n_01_1_11.batchCoord (ix1 i) 1
      + gather_S8192x8192_S8192x2_S8192_n_01_n_n_01_1_11.offCoord (ix1 i) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x8192_S8192x2_S8192_n_01_n_n_01_1_11.startIndexMap by decide)]
    have hsi : gather_S8192x8192_S8192x2_S8192_n_01_n_n_01_1_11.siIdx (ix1 i)
        ⟨List.idxOf (1 : Fin 2) gather_S8192x8192_S8192x2_S8192_n_01_n_n_01_1_11.startIndexMap,
          List.idxOf_lt_length_iff.2 (by decide)⟩ = ix2 i 1 := by
      funext b; refine Fin.ext ?_
      match b with
      | ⟨0, _⟩ => rfl
      | ⟨1, _⟩ => rfl
    rw [hsi]
    rfl

/-- The same, with the row and the column named: whichever `r`, `c` the two clamped start words are. -/
theorem gather_point_eq {α : Type} {w : Nat} (A : S8192x8192.Idx → α) (idx : IVec S8192x2 w) (i r c : Fin 8192)
    (hr : min (idx (ix2 i 0)).toInt.toNat 8191 = r.val) (hc : min (idx (ix2 i 1)).toInt.toNat 8191 = c.val) :
    Host.gather gather_S8192x8192_S8192x2_S8192_n_01_n_n_01_1_11 A idx (ix1 i) = A (ix2 r c) := by
  rw [gather_point_apply]
  have e0 : (⟨min (idx (ix2 i 0)).toInt.toNat 8191, by omega⟩ : Fin 8192) = r := Fin.ext hr
  have e1 : (⟨min (idx (ix2 i 1)).toInt.toNat 8191, by omega⟩ : Fin 8192) = c := Fin.ext hc
  rw [e0, e1]

/-- Two one-column arrays joined along the column axis, read in column 0: the first array. -/
theorem concat_col0 {α : Type} (a b : S8192x1.Idx → α) (h : Shape.Concatenates [S8192x1, S8192x1] S8192x2 1)
    (i : Fin 8192) :
    concatenate S8192x2 1 [⟨S8192x1, a⟩, ⟨S8192x1, b⟩] h (ix2 i 0) = a (ix2 i 0) :=
  concatenate_pair_apply_left 1 a b h (ix2 i 0) rfl (ix2 i 0) (fun c => match c with
    | ⟨0, _⟩ => rfl
    | ⟨1, _⟩ => rfl)

/-- Two one-column arrays joined along the column axis, read in column 1: the second array. -/
theorem concat_col1 {α : Type} (a b : S8192x1.Idx → α) (h : Shape.Concatenates [S8192x1, S8192x1] S8192x2 1)
    (i : Fin 8192) :
    concatenate S8192x2 1 [⟨S8192x1, a⟩, ⟨S8192x1, b⟩] h (ix2 i 1) = b (ix2 i 0) :=
  concatenate_pair_apply_right 1 a b h (ix2 i 1) rfl rfl (ix2 i 0) (fun c hc => match c, hc with
    | ⟨0, _⟩, _ => rfl
    | ⟨1, _⟩, hc => absurd rfl hc) rfl

/-- The word of a row number below 8192 is nonnegative, so its normalisation (a negative word has 8192 added)
    leaves it, and read signed and clamped into `[0, 8191]` it is the row number. -/
theorem iota_word (i : Fin 8192) :
    min (Scalar.select (IntOp.cmpi .slt (BitVec.ofNat 32 i.val) 0#32)
      (IntOp.addi (BitVec.ofNat 32 i.val) 8192#32) (BitVec.ofNat 32 i.val)).toInt.toNat 8191 = i.val := by
  have hi := i.isLt
  have hb : ((i.val : Int)).bmod (2 ^ 32) = i.val := Int.bmod_eq_of_le (by omega) (by omega)
  have h0 : ¬ ((i.val : Int) < 0) := by omega
  have hslt : IntOp.cmpi .slt (BitVec.ofNat 32 i.val) 0#32 = 0#1 := by
    simp only [IntOp.cmpi, BitVec.slt, BitVec.toInt_ofNat', hb]
    simp [h0]
  rw [hslt, select_zero, BitVec.toInt_ofNat', hb]
  simp only [Int.toNat_natCast]
  omega

end Cert.ReferenceIdeal.RefValue

end
-- ==== Proof.RefLoss.lean ====
/-
  The reference program's result is the contrastive loss of the specification.

  Read one element at a time: a row's norm is the floored square root of its sum of squares, a similarity
  entry the inner product of two unit rows over the temperature, the three point gathers read the similarity
  matrix at (i, i), (i, r(n₃ i)) and (r(n₄ i), i), the soft-plus call is the specification's soft-plus (its
  guard "z ≠ z" never holds on the extended reals, and z − 0 = z there), and each mean is the sum over the
  rows divided by the row count.
-/
import proofs.«131384_j13889924235452_2_alg».proof.Proof.RefGather
import proofs.«131384_j13889924235452_2_alg».proof.Proof.Loss
import proofs.«131384_j13889924235452_2_alg».proof.Proof.Temperature
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## The index functions of the layout operations, by coordinates -/

theorem idx_call0_v2 (i : Fin 8192) : Read.idx_main_call0_v2 (ix2 i (0 : Fin 1)) = ix1 i :=
  funext fun a => Fin.ext (by match a with | ⟨0, _⟩ => rfl)
theorem idx_call1_v2 (i : Fin 8192) : Read.idx_main_call1_v2 (ix2 i (0 : Fin 1)) = ix1 i :=
  funext fun a => Fin.ext (by match a with | ⟨0, _⟩ => rfl)
theorem idx_call0_v1 (i : Fin 8192) (k : Fin 1024) : Read.idx_main_call0_v1 (ix1 i) k = ix2 i k :=
  funext fun a => Fin.ext (by match a with | ⟨0, _⟩ => rfl | ⟨1, _⟩ => rfl)
theorem idx_call1_v1 (i : Fin 8192) (k : Fin 1024) : Read.idx_main_call1_v1 (ix1 i) k = ix2 i k :=
  funext fun a => Fin.ext (by match a with | ⟨0, _⟩ => rfl | ⟨1, _⟩ => rfl)
theorem idx_v3 (i : Fin 8192) (k : Fin 1024) : Read.idx_main_v3 (ix2 i k) = ix2 i (0 : Fin 1) :=
  funext fun a => Fin.ext (by match a with | ⟨0, _⟩ => rfl | ⟨1, _⟩ => rfl)
theorem idx_v8 (i : Fin 8192) (k : Fin 1024) : Read.idx_main_v8 (ix2 i k) = ix2 i (0 : Fin 1) :=
  funext fun a => Fin.ext (by match a with | ⟨0, _⟩ => rfl | ⟨1, _⟩ => rfl)
theorem idx_v10 (k : Fin 1024) (j : Fin 8192) : Read.idx_main_v10 (ix2 k j) = ix2 j k :=
  funext fun a => Fin.ext (by match a with | ⟨0, _⟩ => rfl | ⟨1, _⟩ => rfl)
theorem lidx_v11 (i j : Fin 8192) (k : Fin 1024) : Read.lidx_main_v11 (ix2 i j) k = ix2 i k :=
  funext fun a => Fin.ext (by match a with | ⟨0, _⟩ => rfl | ⟨1, _⟩ => rfl)
theorem ridx_v11 (i j : Fin 8192) (k : Fin 1024) : Read.ridx_main_v11 (ix2 i j) k = ix2 k j :=
  funext fun a => Fin.ext (by match a with | ⟨0, _⟩ => rfl | ⟨1, _⟩ => rfl)
theorem idx_v25 (i : Fin 8192) : Read.idx_main_v25 (ix2 i (0 : Fin 1)) = ix1 i :=
  funext fun a => Fin.ext (by match a with | ⟨0, _⟩ => rfl)
theorem idx_v26 (i : Fin 8192) : Read.idx_main_v26 (ix2 i (0 : Fin 1)) = ix1 i :=
  funext fun a => Fin.ext (by match a with | ⟨0, _⟩ => rfl)
theorem idx_v39 (i : Fin 8192) : Read.idx_main_v39 (ix2 i (0 : Fin 1)) = ix1 i :=
  funext fun a => Fin.ext (by match a with | ⟨0, _⟩ => rfl)
theorem idx_v40 (i : Fin 8192) : Read.idx_main_v40 (ix2 i (0 : Fin 1)) = ix1 i :=
  funext fun a => Fin.ext (by match a with | ⟨0, _⟩ => rfl)
theorem idx_v53 (i : Fin 8192) : Read.idx_main_v53 (ix2 i (0 : Fin 1)) = ix1 i :=
  funext fun a => Fin.ext (by match a with | ⟨0, _⟩ => rfl)
theorem idx_v54 (i : Fin 8192) : Read.idx_main_v54 (ix2 i (0 : Fin 1)) = ix1 i :=
  funext fun a => Fin.ext (by match a with | ⟨0, _⟩ => rfl)

/-- A sum over the rank-1 index set of 8192 rows is the sum over the row numbers. -/
theorem sum_rows {M : Type*} [AddCommMonoid M] (f : S8192.Idx → M) : ∑ j, f j = ∑ a : Fin 8192, f (ix1 a) := by
  let e : S8192.Idx ≃ Fin 8192 :=
    { toFun := fun j => j 0, invFun := fun a => ix1 a, left_inv := fun j => (eq_ix1 j).symm, right_inv := fun _ => rfl }
  rw [← Equiv.sum_comp e.symm f]
  rfl

/-! ## Norms, unit rows, similarities -/

/-- The zero word is the extended real zero. -/
theorem zero_word : FloatOps.ofBits (F := Ideal) .f32 0x00000000#32 = (0 : EReal) := Cert.Temperature.ofBits_zero

theorem norm0 (x0 : (⟨S8192x1024, .f32⟩ : BufTy).Contents (Elt Ideal)) (i : Fin 8192) :
    Read.val_main_v2 (F := Ideal) x0 (ix2 i (0 : Fin 1)) = Cert.Loss.rowNorm x0 i := by
  rw [Read.val_main_v2_apply, Read.val_main_v0_apply, Read.val_main_call0_v2_apply, idx_call0_v2,
    Read.val_main_call0_v1_apply, Read.val_main_call0_cst_apply, Read.val_main_v1_apply, Read.val_main_cst_apply,
    zero_word, zero_add]
  simp only [idx_call0_v1, Read.val_main_call0_v0_apply]
  rfl

theorem norm1 (x1 : (⟨S8192x1024, .f32⟩ : BufTy).Contents (Elt Ideal)) (i : Fin 8192) :
    Read.val_main_v7 (F := Ideal) x1 (ix2 i (0 : Fin 1)) = Cert.Loss.rowNorm x1 i := by
  rw [Read.val_main_v7_apply, Read.val_main_v5_apply, Read.val_main_call1_v2_apply, idx_call1_v2,
    Read.val_main_call1_v1_apply, Read.val_main_call1_cst_apply, Read.val_main_v6_apply, Read.val_main_cst_0_apply,
    zero_word, zero_add]
  simp only [idx_call1_v1, Read.val_main_call1_v0_apply]
  rfl

theorem unit0 (x0 : (⟨S8192x1024, .f32⟩ : BufTy).Contents (Elt Ideal)) (i : Fin 8192) (k : Fin 1024) :
    Read.val_main_v4 (F := Ideal) x0 (ix2 i k) = Cert.Loss.unit x0 i k := by
  rw [Read.val_main_v4_apply, Read.val_main_v3_apply, idx_v3, norm0]
  rfl

theorem unit1 (x1 : (⟨S8192x1024, .f32⟩ : BufTy).Contents (Elt Ideal)) (j : Fin 8192) (k : Fin 1024) :
    Read.val_main_v10 (F := Ideal) x1 (ix2 k j) = Cert.Loss.unit x1 j k := by
  rw [Read.val_main_v10_apply, idx_v10, Read.val_main_v9_apply, Read.val_main_v8_apply, idx_v8, norm1]
  rfl

/-- An entry of the scaled similarity matrix. -/
theorem sim_entry (x0 x1 : (⟨S8192x1024, .f32⟩ : BufTy).Contents (Elt Ideal)) (i j : Fin 8192) :
    Read.val_main_v13 (F := Ideal) x0 x1 (ix2 i j) = Ideal.div (Cert.Loss.sim x0 x1 i j) Cert.Loss.temperature := by
  rw [Read.val_main_v13_apply, Read.val_main_v11_apply, Read.val_main_v12_apply, Read.val_main_cst_1_apply]
  simp only [lidx_v11, ridx_v11, unit0, unit1]
  rfl

/-! ## The three gathers -/

/-- The normalised iota column names row `i` itself. -/
theorem iota_norm (v : S8192.Idx → BitVec 32) (i : Fin 8192)
    (hv : v (ix1 i) = Scalar.select (IntOp.cmpi .slt (BitVec.ofNat 32 i.val) 0#32)
      (IntOp.addi (BitVec.ofNat 32 i.val) 8192#32) (BitVec.ofNat 32 i.val)) :
    min (v (ix1 i)).toInt.toNat 8191 = i.val := by
  rw [hv]; exact iota_word i

theorem v19_at (i : Fin 8192) : Read.val_main_v19 (F := Ideal) (ix1 i)
    = Scalar.select (IntOp.cmpi .slt (BitVec.ofNat 32 i.val) 0#32)
      (IntOp.addi (BitVec.ofNat 32 i.val) 8192#32) (BitVec.ofNat 32 i.val) := by
  rw [Read.val_main_v19_apply, Read.val_main_v16_apply, Read.val_main_v18_apply, Read.val_main_v14_apply,
    Read.val_main_v15_apply, Read.val_main_v17_apply, Read.val_main_c_apply, Read.val_main_c_2_apply] <;> rfl
theorem v24_at (i : Fin 8192) : Read.val_main_v24 (F := Ideal) (ix1 i)
    = Scalar.select (IntOp.cmpi .slt (BitVec.ofNat 32 i.val) 0#32)
      (IntOp.addi (BitVec.ofNat 32 i.val) 8192#32) (BitVec.ofNat 32 i.val) := by
  rw [Read.val_main_v24_apply, Read.val_main_v21_apply, Read.val_main_v23_apply, Read.val_main_v14_apply,
    Read.val_main_v20_apply, Read.val_main_v22_apply, Read.val_main_c_3_apply, Read.val_main_c_4_apply] <;> rfl
theorem v33_at (i : Fin 8192) : Read.val_main_v33 (F := Ideal) (ix1 i)
    = Scalar.select (IntOp.cmpi .slt (BitVec.ofNat 32 i.val) 0#32)
      (IntOp.addi (BitVec.ofNat 32 i.val) 8192#32) (BitVec.ofNat 32 i.val) := by
  rw [Read.val_main_v33_apply, Read.val_main_v30_apply, Read.val_main_v32_apply, Read.val_main_v14_apply,
    Read.val_main_v29_apply, Read.val_main_v31_apply, Read.val_main_c_5_apply, Read.val_main_c_6_apply] <;> rfl
theorem v52_at (i : Fin 8192) : Read.val_main_v52 (F := Ideal) (ix1 i)
    = Scalar.select (IntOp.cmpi .slt (BitVec.ofNat 32 i.val) 0#32)
      (IntOp.addi (BitVec.ofNat 32 i.val) 8192#32) (BitVec.ofNat 32 i.val) := by
  rw [Read.val_main_v52_apply, Read.val_main_v49_apply, Read.val_main_v51_apply, Read.val_main_v14_apply,
    Read.val_main_v48_apply, Read.val_main_v50_apply, Read.val_main_c_11_apply, Read.val_main_c_12_apply] <;> rfl

/-- The normalised word of the image-to-text index array names the specification's row. -/
theorem v38_at (x3 : (⟨S8192, .i32⟩ : BufTy).Contents (Elt Ideal)) (i : Fin 8192) :
    min (BitVec.toInt (Read.val_main_v38 (F := Ideal) x3 (ix1 i))).toNat 8191 = (Cert.Loss.row (x3 (ix1 i))).val := by
  rw [Read.val_main_v38_apply, Read.val_main_v35_apply, Read.val_main_v37_apply, Read.val_main_v34_apply,
    Read.val_main_v36_apply, Read.val_main_c_7_apply, Read.val_main_c_8_apply] <;> rfl
/-- The normalised word of the text-to-image index array names the specification's row. -/
theorem v47_at (x4 : (⟨S8192, .i32⟩ : BufTy).Contents (Elt Ideal)) (i : Fin 8192) :
    min (BitVec.toInt (Read.val_main_v47 (F := Ideal) x4 (ix1 i))).toNat 8191 = (Cert.Loss.row (x4 (ix1 i))).val := by
  rw [Read.val_main_v47_apply, Read.val_main_v44_apply, Read.val_main_v46_apply, Read.val_main_v43_apply,
    Read.val_main_v45_apply, Read.val_main_c_9_apply, Read.val_main_c_10_apply] <;> rfl

/-- The positive pair: the similarity matrix on its diagonal. -/
theorem pos_at (x0 x1 : (⟨S8192x1024, .f32⟩ : BufTy).Contents (Elt Ideal)) (i : Fin 8192) :
    Read.val_main_v28 (F := Ideal) x0 x1 (ix1 i) = Ideal.div (Cert.Loss.sim x0 x1 i i) Cert.Loss.temperature := by
  have h0 : min (BitVec.toInt (Read.val_main_v27 (F := Ideal) (ix2 i 0))).toNat 8191 = i.val := by
    unfold Read.val_main_v27
    rw [concat_col0, Read.val_main_v25_apply, idx_v25]
    exact iota_norm _ i (v19_at i)
  have h1 : min (BitVec.toInt (Read.val_main_v27 (F := Ideal) (ix2 i 1))).toNat 8191 = i.val := by
    unfold Read.val_main_v27
    rw [concat_col1, Read.val_main_v26_apply, idx_v26]
    exact iota_norm _ i (v24_at i)
  unfold Read.val_main_v28
  rw [gather_point_eq _ _ i i i h0 h1, sim_entry]

/-- The image-to-text negative: row `i`, the column its index word names. -/
theorem negI2T_at (x0 x1 : (⟨S8192x1024, .f32⟩ : BufTy).Contents (Elt Ideal))
    (x3 : (⟨S8192, .i32⟩ : BufTy).Contents (Elt Ideal)) (i : Fin 8192) :
    Read.val_main_v42 (F := Ideal) x0 x1 x3 (ix1 i)
      = Ideal.div (Cert.Loss.sim x0 x1 i (Cert.Loss.row (x3 (ix1 i)))) Cert.Loss.temperature := by
  have h0 : min (BitVec.toInt (Read.val_main_v41 (F := Ideal) x3 (ix2 i 0))).toNat 8191 = i.val := by
    unfold Read.val_main_v41
    rw [concat_col0, Read.val_main_v39_apply, idx_v39]
    exact iota_norm _ i (v33_at i)
  have h1 : min (BitVec.toInt (Read.val_main_v41 (F := Ideal) x3 (ix2 i 1))).toNat 8191
      = (Cert.Loss.row (x3 (ix1 i))).val := by
    unfold Read.val_main_v41
    rw [concat_col1, Read.val_main_v40_apply, idx_v40]
    exact v38_at x3 i
  unfold Read.val_main_v42
  rw [gather_point_eq _ _ i i (Cert.Loss.row (x3 (ix1 i))) h0 h1, sim_entry]

/-- The text-to-image negative: the row its index word names, column `i`. -/
theorem negT2I_at (x0 x1 : (⟨S8192x1024, .f32⟩ : BufTy).Contents (Elt Ideal))
    (x4 : (⟨S8192, .i32⟩ : BufTy).Contents (Elt Ideal)) (i : Fin 8192) :
    Read.val_main_v56 (F := Ideal) x0 x1 x4 (ix1 i)
      = Ideal.div (Cert.Loss.sim x0 x1 (Cert.Loss.row (x4 (ix1 i))) i) Cert.Loss.temperature := by
  have h0 : min (BitVec.toInt (Read.val_main_v55 (F := Ideal) x4 (ix2 i 0))).toNat 8191
      = (Cert.Loss.row (x4 (ix1 i))).val := by
    unfold Read.val_main_v55
    rw [concat_col0, Read.val_main_v53_apply, idx_v53]
    exact v47_at x4 i
  have h1 : min (BitVec.toInt (Read.val_main_v55 (F := Ideal) x4 (ix2 i 1))).toNat 8191 = i.val := by
    unfold Read.val_main_v55
    rw [concat_col1, Read.val_main_v54_apply, idx_v54]
    exact iota_norm _ i (v52_at i)
  unfold Read.val_main_v56
  rw [gather_point_eq _ _ i (Cert.Loss.row (x4 (ix1 i))) i h0 h1, sim_entry]

/-! ## The soft-plus call and the means -/

/-- The soft-plus function's body on one extended real: its guard compares `z - 0` with itself for inequality,
    which never holds, so the result is the unguarded branch, and `z - 0 = z`. -/
theorem softplus_scalar (z : Ideal .f32) :
    Scalar.select
      (FloatOps.cmpf .une (FloatOps.subf z (FloatOps.ofBits .f32 0x00000000#32)) (FloatOps.subf z (FloatOps.ofBits .f32 0x00000000#32)))
      (FloatOps.addf z (FloatOps.ofBits .f32 0x00000000#32))
      (FloatOps.addf (FloatOps.maximumf z (FloatOps.ofBits .f32 0x00000000#32))
        (FloatOps.hostUnary .log1p (FloatOps.hostUnary .exp (FloatOps.hostNegf (FloatOps.hostAbsf
          (FloatOps.subf z (FloatOps.ofBits .f32 0x00000000#32)))))))
      = Cert.Loss.softplus z := by
  rw [zero_word]
  have hz : FloatOps.subf z (0 : EReal) = z := sub_zero (z : EReal)
  rw [hz]
  have hc : FloatOps.cmpf (F := Ideal) .une z z = 0#1 := by
    show Ideal.cmp .une z z = 0#1
    simp [Ideal.cmp]
  rw [hc, select_zero]
  rfl

theorem softplus_I2T (x0 x1 : (⟨S8192x1024, .f32⟩ : BufTy).Contents (Elt Ideal))
    (x3 : (⟨S8192, .i32⟩ : BufTy).Contents (Elt Ideal)) (i : Fin 8192) :
    Read.val_main_v58 (F := Ideal) x0 x1 x3 (ix1 i)
      = Cert.Loss.softplus (Ideal.div (Cert.Loss.sim x0 x1 i (Cert.Loss.row (x3 (ix1 i)))) Cert.Loss.temperature
          - Ideal.div (Cert.Loss.sim x0 x1 i i) Cert.Loss.temperature) := by
  simp only [Read.val_main_v58_apply, Read.val_main_call2_v4_apply, Read.val_main_call2_v6_apply,
    Read.val_main_call2_v11_apply, Read.val_main_call2_v1_apply, Read.val_main_call2_v10_apply,
    Read.val_main_call2_v9_apply, Read.val_main_call2_v8_apply, Read.val_main_call2_v7_apply,
    Read.val_main_call2_v3_apply, Read.val_main_call2_v0_apply, Read.val_main_call2_v2_apply,
    Read.val_main_call2_v5_apply, Read.val_main_call2_cst_apply]
  rw [softplus_scalar, Read.val_main_v57_apply, negI2T_at, pos_at] <;> rfl

theorem softplus_T2I (x0 x1 : (⟨S8192x1024, .f32⟩ : BufTy).Contents (Elt Ideal))
    (x4 : (⟨S8192, .i32⟩ : BufTy).Contents (Elt Ideal)) (i : Fin 8192) :
    Read.val_main_v62 (F := Ideal) x0 x1 x4 (ix1 i)
      = Cert.Loss.softplus (Ideal.div (Cert.Loss.sim x0 x1 (Cert.Loss.row (x4 (ix1 i))) i) Cert.Loss.temperature
          - Ideal.div (Cert.Loss.sim x0 x1 i i) Cert.Loss.temperature) := by
  simp only [Read.val_main_v62_apply, Read.val_main_call3_v4_apply, Read.val_main_call3_v6_apply,
    Read.val_main_call3_v11_apply, Read.val_main_call3_v1_apply, Read.val_main_call3_v10_apply,
    Read.val_main_call3_v9_apply, Read.val_main_call3_v8_apply, Read.val_main_call3_v7_apply,
    Read.val_main_call3_v3_apply, Read.val_main_call3_v0_apply, Read.val_main_call3_v2_apply,
    Read.val_main_call3_v5_apply, Read.val_main_call3_cst_apply]
  rw [softplus_scalar, Read.val_main_v61_apply, negT2I_at, pos_at] <;> rfl

/-- The image-to-text mean. -/
theorem meanI2T (x0 x1 : (⟨S8192x1024, .f32⟩ : BufTy).Contents (Elt Ideal))
    (x3 : (⟨S8192, .i32⟩ : BufTy).Contents (Elt Ideal)) (j : S_.Idx) :
    Read.val_main_v60 (F := Ideal) x0 x1 x3 j
      = Ideal.div (Cert.Loss.sumI2T x0 x1 x3) (Ideal.ofBits .f32 0x46000000#32) := by
  rw [Read.val_main_v60_apply, Read.val_main_v59_apply, Read.val_main_cst_13_apply, Read.val_main_cst_14_apply,
    zero_word, zero_add, sum_rows]
  simp only [softplus_I2T]
  rfl

/-- The text-to-image mean. -/
theorem meanT2I (x0 x1 : (⟨S8192x1024, .f32⟩ : BufTy).Contents (Elt Ideal))
    (x4 : (⟨S8192, .i32⟩ : BufTy).Contents (Elt Ideal)) (j : S_.Idx) :
    Read.val_main_v64 (F := Ideal) x0 x1 x4 j
      = Ideal.div (Cert.Loss.sumT2I x0 x1 x4) (Ideal.ofBits .f32 0x46000000#32) := by
  rw [Read.val_main_v64_apply, Read.val_main_v63_apply, Read.val_main_cst_15_apply, Read.val_main_cst_16_apply,
    zero_word, zero_add, sum_rows]
  simp only [softplus_T2I]
  rfl

/-- THE REFERENCE'S RESULT: the specification's loss, at the one index of the scalar shape. -/
theorem result_eq (x0 x1 : (⟨S8192x1024, .f32⟩ : BufTy).Contents (Elt Ideal))
    (x3 x4 : (⟨S8192, .i32⟩ : BufTy).Contents (Elt Ideal)) :
    Read.val_main_v66 (F := Ideal) x0 x1 x3 x4 = fun _ => Cert.Loss.total x0 x1 x3 x4 := by
  funext j
  rw [Read.val_main_v66_apply, Read.val_main_v65_apply, meanI2T, meanT2I, Read.val_main_cst_17_apply]
  rfl

end Cert.ReferenceIdeal.RefValue

end
-- ==== Proof.lean ====
/-
  The certificate of a contrastive loss kernel against its reference.

  Both programs compute, from an image and a text embedding matrix of 8192 rows of 1024 features and two vectors
  of row indices, the mean over the rows of the soft-plus of (negative similarity - positive similarity) /
  temperature, in both directions, averaged (`Cert.Loss.total`). The reference forms the full 8192-by-8192
  similarity matrix, divides it by the temperature word and picks three entries per row; the kernel gathers the
  negative rows first, walks the rows in sixteen tiles over two cores, multiplies the difference of two inner
  products by the reciprocal of the temperature word, and keeps two running sums per core which the host adds up.

  The kernel's reciprocal constant is read as the exact reciprocal `2^27 / 9395241` of the reference's
  temperature word `9395241 / 2^27`; with it the two sides are one extended real for all inputs: a quotient by a
  nonzero real is a product with its reciprocal, and a product with a nonnegative real distributes over a
  difference at the infinities too. The precondition is not used.

  `RefLoss` reads the reference's result as `Cert.Loss.total`; `KernelRun` the kernel program's; the three frames
  are the generated ones (the reference's its run with the result dropped).
-/
import proofs.«131384_j13889924235452_2_alg».proof.Defs
import proofs.«131384_j13889924235452_2_alg».proof.Proof.Gen.Kernel
import proofs.«131384_j13889924235452_2_alg».proof.Proof.Gen.Kernel.Skeleton
import proofs.«131384_j13889924235452_2_alg».proof.Proof.Gen.Kernel.Launch
import proofs.«131384_j13889924235452_2_alg».proof.Proof.Gen.Kernel.Points
import proofs.«131384_j13889924235452_2_alg».proof.Proof.Gen.Kernel.Frame
import proofs.«131384_j13889924235452_2_alg».proof.Proof.Gen.KernelIdeal
import proofs.«131384_j13889924235452_2_alg».proof.Proof.Gen.KernelIdeal.Skeleton
import proofs.«131384_j13889924235452_2_alg».proof.Proof.Gen.KernelIdeal.Launch
import proofs.«131384_j13889924235452_2_alg».proof.Proof.Gen.KernelIdeal.Points
import proofs.«131384_j13889924235452_2_alg».proof.Proof.Gen.KernelIdeal.Frame
import proofs.«131384_j13889924235452_2_alg».proof.Proof.Gen.ReferenceIdeal
import proofs.«131384_j13889924235452_2_alg».proof.Proof.Gen.ReferenceIdeal.Run
import proofs.«131384_j13889924235452_2_alg».proof.Proof.Gen.ReferenceIdeal.Read
import proofs.«131384_j13889924235452_2_alg».proof.Proof.Gen.Pre_finite_inputs
import proofs.«131384_j13889924235452_2_alg».proof.Proof.KernelRun
import proofs.«131384_j13889924235452_2_alg».proof.Proof.RefLoss
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two places the kernel spells its reciprocal temperature: the table gives the name the exact reciprocal
    of the reference's temperature word. -/
theorem preserves : Cert.preserves_Kernel_KernelIdeal :=
  ⟨IdealRules.named_const.statement Cert.KernelIdeal.κ "inv_temp" .f32 0x41649249#32
      ((134217728 / 9395241 : ℝ) : EReal) rfl,
    IdealRules.named_const.statement Cert.KernelIdeal.κ "inv_temp" .f32 0x41649249#32
      ((134217728 / 9395241 : ℝ) : EReal) rfl⟩

/-- Both programs end with the loss of the arguments as their result. -/
theorem algebraic : Cert.algebraic_KernelIdeal_ReferenceIdeal := by
  intro m ρ m' ρ' _ hagree
  refine ⟨fun c => Cert.KernelIdeal.Result.loss m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, Cert.ReferenceIdeal.RefValue.result_eq, (hagree c).1, (hagree c).2.1,
    (hagree c).2.2.2.1, (hagree c).2.2.2.2]
  rfl

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
